-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x1024 .f32) (main_arg1 : FVec F S4096x1024 .f32) (main_arg2 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  main_v13
-- ==== Kernel.lean ====
abbrev S4096x1024 : Shape := ⟨2, ![4096, 1024]⟩
abbrev S512x1024 : Shape := ⟨2, ![512, 1024]⟩
abbrev S512x1 : Shape := ⟨2, ![512, 1]⟩
abbrev S512x512 : Shape := ⟨2, ![512, 512]⟩
abbrev S512 : Shape := ⟨1, ![512]⟩

abbrev nBuf : Space → Nat
  | .hbm => 5
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .bf16⟩
  | .hbm, ⟨4, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S512x1, .f32⟩
  | .local _ .vmem, ⟨9, _⟩ => ⟨S512x1, .f32⟩
  | .local _ .vmem, ⟨10, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v37 : BitVec 1 := Scalar.cmpi .eq arg1 c7_i32
  let v38 : BitVec 32 := Scalar.extui v37
  let c0_i32_21 : BitVec 32 := 0#32
  let v39 : BitVec 1 := Scalar.cmpi .ne v38 c0_i32_21
  v39

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bitsLt_bf16_f32 : FTy.bits .bf16 < FTy.bits .f32
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  reduces_S512x512_S512 : S512x512.Reduces [1] S512
  shapeCasts_S512_S512x1 : S512.ShapeCasts S512x1
  broadcasts_S512x1_S512x512 : S512x1.Broadcasts S512x512
  broadcasts_S512x1_S512x1024 : S512x1.Broadcasts S512x1024
  dot_S512x1024_S512x1024_S512x512_1_1_0_0_n_n_wf : DotDims.WF S512x1024 S512x1024 S512x512 [1] [1] [0] [0] [] []
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x1024.size a
  hwx0_1 : ∀ i : grid0.Coords, EltTy.bits .f32 = 32 ∨ (Rect.block (s := S4096x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x1024.size a
  hwx0_2 : ∀ i : grid0.Coords, EltTy.bits .bf16 = 32 ∨ (Rect.block (s := S4096x1024) S512x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x1024.size a
  hwx0_3 : ∀ i : grid0.Coords, EltTy.bits .f32 = 32 ∨ (Rect.block (s := S4096x1024) S512x1024.size (cc0_transform_3 i) (hinb0_3 i)).WholeWords (EltTy.packing .f32)

variable [Facts₀]

def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x4096, .f32⟩
  | .hbm, ⟨4, _⟩ => ⟨S4096x4096, .f32⟩
  | .hbm, ⟨5, _⟩ => ⟨S_, .f32⟩
  | .hbm, ⟨6, _⟩ => ⟨S4096, .f32⟩
  | .hbm, ⟨7, _⟩ => ⟨S_, .f32⟩
  | .hbm, ⟨8, _⟩ => ⟨S4096, .f32⟩
  | .hbm, ⟨9, _⟩ => ⟨S4096, .f32⟩
  | .hbm, ⟨10, _⟩ => ⟨S4096x1, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S4096x4096, .f32⟩
  | .hbm, ⟨18, _⟩ => ⟨S4096x4096, .f32⟩
  | .hbm, ⟨19, _⟩ => ⟨S_, .f32⟩
  | .hbm, ⟨20, _⟩ => ⟨S4096x4096, .f32⟩
  | .hbm, ⟨21, _⟩ => ⟨S4096x4096, .f32⟩
  | .hbm, ⟨22, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  transposes_S4096x1024_S1024x4096_1_0 : S4096x1024.Transposes [1, 0] S1024x4096
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)
  dot_S4096x1024_S1024x4096_S4096x4096_1_0_0_1_n_n_wf : DotDims.WF S4096x1024 S1024x4096 S4096x4096 [1] [0] [0] [1] [] []
  dot_S4096x4096_S4096x1024_S4096x1024_1_0_0_1_n_n_wf : DotDims.WF S4096x4096 S4096x1024 S4096x1024 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf
def dot_S4096x4096_S4096x1024_S4096x1024_1_0_0_1_n_n : DotDims S4096x4096 S4096x1024 S4096x1024 where
  lhsContracting := [1]
  rhsContracting := [0]
  lhsNonContracting := [0]
  rhsNonContracting := [1]
  lhsBatch := []
  rhsBatch := []
  wf := dot_S4096x4096_S4096x1024_S4096x1024_1_0_0_1_n_n_wf

class Facts : Prop extends Facts₀ where

variable [Facts]
-- ==== Proof.Pieces.lean ====
/-
  What one run of the kernel body leaves in the three carried arrays (the running offset, the running sum of weights,
  the running weighted sums) and, at the last block of keys, in the output block: each is one of the body's named pure
  terms applied to the blocks the body loaded and to what the carried arrays held before.
  At the first block of keys the body first resets the carried arrays (offset minus infinity, sums zero) and then
  proceeds from those; at the other blocks it proceeds from what the previous point left.
-/
import proofs.«153183_j7206955123485_2_alg».proof.Proof.Gen.KernelIdeal.Frame
import Idealize.ShloMosaic.Lib.Pipeline.Value
import Idealize.ShloMosaic.Lib.Tactic

noncomputable section

namespace Cert.Attn.Pieces

open Cert.KernelIdeal Cert.KernelIdeal.Gen
open Idealize.ShloMosaic Idealize.ShloMosaic.TcCoe Idealize.SL.Sem

variable {F : FTy → Type} [FloatOps F]

theorem hz : (![0, 0] : Fin 2 → Nat) = fun _ => 0 := funext fun a => by fin_cases a <;> rfl

theorem sB0 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond0_0 i) (hc1 : ¬cond0_1 i)
    (x0 : Vec F S512x1024 .f32) (x1 : Vec F S512x1024 .f32) (x2 : Vec F S512x1024 .bf16) (xs0 : Vec F S512x1 .f32) (xs1 : Vec F S512x1 .f32) (xs2 : Vec F S512x1024 .f32) :
    sout0_B_0 c i arg2 harg2 arg3 harg3 arg4 harg4 arg5 harg5 arg6 harg6 arg7 harg7 arg8 harg8 hc0 hc1 x0 x1 x2 xs0 xs1 xs2 = k0_pay1 (k0_pay7 x0 x1 xs0) := by
  unfold sout0_B_0
  rw [View.read_writes_eq_canon _ _ _ (scover0_B_0 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero hz]
  simp only [View.readAt_eq_ld, harg2.read_unread, harg3.read_unread, harg4.read_unread, harg6.read_unread, harg7.read_unread, harg8.read_unread, View.ld_unit_zero (S := S512x1024) hz, View.ld_unit_zero (S := S512x1) hz, View.readCov_unit_zero (S := S512x1) _ hz, View.readCov_unit_zero (S := S512x1024) _ hz]

theorem sB1 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond0_0 i) (hc1 : ¬cond0_1 i)
    (x0 : Vec F S512x1024 .f32) (x1 : Vec F S512x1024 .f32) (x2 : Vec F S512x1024 .bf16) (xs0 : Vec F S512x1 .f32) (xs1 : Vec F S512x1 .f32) (xs2 : Vec F S512x1024 .f32) :
    sout0_B_1 c i arg2 harg2 arg3 harg3 arg4 harg4 arg5 harg5 arg6 harg6 arg7 harg7 arg8 harg8 hc0 hc1 x0 x1 x2 xs0 xs1 xs2 = k0_pay10 x0 x1 xs0 xs1 := by
  unfold sout0_B_1
  rw [View.read_writes_eq_canon _ _ _ (scover0_B_1 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero hz]
  simp only [View.readAt_eq_ld, harg2.read_unread, harg3.read_unread, harg4.read_unread, harg6.read_unread, harg7.read_unread, harg8.read_unread, View.ld_unit_zero (S := S512x1024) hz, View.ld_unit_zero (S := S512x1) hz, View.readCov_unit_zero (S := S512x1) _ hz, View.readCov_unit_zero (S := S512x1024) _ hz]

theorem sB2 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond0_0 i) (hc1 : ¬cond0_1 i)
    (x0 : Vec F S512x1024 .f32) (x1 : Vec F S512x1024 .f32) (x2 : Vec F S512x1024 .bf16) (xs0 : Vec F S512x1 .f32) (xs1 : Vec F S512x1 .f32) (xs2 : Vec F S512x1024 .f32) :
    sout0_B_2 c i arg2 harg2 arg3 harg3 arg4 harg4 arg5 harg5 arg6 harg6 arg7 harg7 arg8 harg8 hc0 hc1 x0 x1 x2 xs0 xs1 xs2 = k0_pay11 x0 x1 xs0 x2 xs2 := by
  unfold sout0_B_2
  rw [View.read_writes_eq_canon _ _ _ (scover0_B_2 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero hz]
  simp only [View.readAt_eq_ld, harg2.read_unread, harg3.read_unread, harg4.read_unread, harg6.read_unread, harg7.read_unread, harg8.read_unread, View.ld_unit_zero (S := S512x1024) hz, View.ld_unit_zero (S := S512x1) hz, View.readCov_unit_zero (S := S512x1) _ hz, View.readCov_unit_zero (S := S512x1024) _ hz]

theorem sC0 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond0_0 i) (hc1 : cond0_1 i)
    (x0 : Vec F S512x1024 .f32) (x1 : Vec F S512x1024 .f32) (x2 : Vec F S512x1024 .bf16) (xs0 : Vec F S512x1 .f32) (xs1 : Vec F S512x1 .f32) (xs2 : Vec F S512x1024 .f32) :
    sout0_C_0 c i arg2 harg2 arg3 harg3 arg4 harg4 arg5 harg5 arg6 harg6 arg7 harg7 arg8 harg8 hc0 hc1 x0 x1 x2 xs0 xs1 xs2 = k0_pay1 (k0_pay7 x0 x1 xs0) := by
  unfold sout0_C_0
  rw [View.read_writes_eq_canon _ _ _ (scover0_C_0 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz]
  simp only [View.readAt_eq_ld, harg2.read_unread, harg3.read_unread, harg4.read_unread, harg6.read_unread, harg7.read_unread, harg8.read_unread, View.ld_unit_zero (S := S512x1024) hz, View.ld_unit_zero (S := S512x1) hz, View.readCov_unit_zero (S := S512x1) _ hz, View.readCov_unit_zero (S := S512x1024) _ hz]

theorem sC1 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond0_0 i) (hc1 : cond0_1 i)
    (x0 : Vec F S512x1024 .f32) (x1 : Vec F S512x1024 .f32) (x2 : Vec F S512x1024 .bf16) (xs0 : Vec F S512x1 .f32) (xs1 : Vec F S512x1 .f32) (xs2 : Vec F S512x1024 .f32) :
    sout0_C_1 c i arg2 harg2 arg3 harg3 arg4 harg4 arg5 harg5 arg6 harg6 arg7 harg7 arg8 harg8 hc0 hc1 x0 x1 x2 xs0 xs1 xs2 = k0_pay10 x0 x1 xs0 xs1 := by
  unfold sout0_C_1
  rw [View.read_writes_eq_canon _ _ _ (scover0_C_1 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz]
  simp only [View.readAt_eq_ld, harg2.read_unread, harg3.read_unread, harg4.read_unread, harg6.read_unread, harg7.read_unread, harg8.read_unread, View.ld_unit_zero (S := S512x1024) hz, View.ld_unit_zero (S := S512x1) hz, View.readCov_unit_zero (S := S512x1) _ hz, View.readCov_unit_zero (S := S512x1024) _ hz]

theorem sC2 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond0_0 i) (hc1 : cond0_1 i)
    (x0 : Vec F S512x1024 .f32) (x1 : Vec F S512x1024 .f32) (x2 : Vec F S512x1024 .bf16) (xs0 : Vec F S512x1 .f32) (xs1 : Vec F S512x1 .f32) (xs2 : Vec F S512x1024 .f32) :
    sout0_C_2 c i arg2 harg2 arg3 harg3 arg4 harg4 arg5 harg5 arg6 harg6 arg7 harg7 arg8 harg8 hc0 hc1 x0 x1 x2 xs0 xs1 xs2 = k0_pay11 x0 x1 xs0 x2 xs2 := by
  unfold sout0_C_2
  rw [View.read_writes_eq_canon _ _ _ (scover0_C_2 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz]
  simp only [View.readAt_eq_ld, harg2.read_unread, harg3.read_unread, harg4.read_unread, harg6.read_unread, harg7.read_unread, harg8.read_unread, View.ld_unit_zero (S := S512x1024) hz, View.ld_unit_zero (S := S512x1) hz, View.readCov_unit_zero (S := S512x1) _ hz, View.readCov_unit_zero (S := S512x1024) _ hz]

theorem oC3 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond0_0 i) (hc1 : cond0_1 i)
    (x0 : Vec F S512x1024 .f32) (x1 : Vec F S512x1024 .f32) (x2 : Vec F S512x1024 .bf16) (xs0 : Vec F S512x1 .f32) (xs1 : Vec F S512x1 .f32) (xs2 : Vec F S512x1024 .f32) :
    out0_C_3 c i arg2 harg2 arg3 harg3 arg4 harg4 arg5 harg5 arg6 harg6 arg7 harg7 arg8 harg8 hc0 hc1 x0 x1 x2 xs0 xs1 xs2 = k0_pay2 (k0_pay10 x0 x1 xs0 xs1) (k0_pay11 x0 x1 xs0 x2 xs2) := by
  unfold out0_C_3
  rw [View.read_writes_eq_canon _ _ _ (cover0_C_3 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz]
  simp only [View.readAt_eq_ld, harg2.read_unread, harg3.read_unread, harg4.read_unread, harg6.read_unread, harg7.read_unread, harg8.read_unread, View.ld_unit_zero (S := S512x1024) hz, View.ld_unit_zero (S := S512x1) hz, View.readCov_unit_zero (S := S512x1) _ hz, View.readCov_unit_zero (S := S512x1024) _ hz]

theorem sA0 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : cond0_0 i) (hc1 : ¬cond0_1 i)
    (x0 : Vec F S512x1024 .f32) (x1 : Vec F S512x1024 .f32) (x2 : Vec F S512x1024 .bf16) :
    sout0_A_0 c i arg2 harg2 arg3 harg3 arg4 harg4 arg5 harg5 arg6 harg6 arg7 harg7 arg8 harg8 hc0 hc1 x0 x1 x2 = k0_pay1 (k0_pay7 x0 x1 k0_pay3) := by
  unfold sout0_A_0
  rw [View.read_writes_eq_canon _ _ _ (scover0_A_0 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero hz]
  simp only [View.readAt_eq_ld, harg2.read_unread, harg3.read_unread, harg4.read_unread, harg6.read_unread, harg7.read_unread, harg8.read_unread, View.ld_unit_zero (S := S512x1024) hz, View.ld_unit_zero (S := S512x1) hz, View.readCov_unit_zero (S := S512x1) _ hz, View.readCov_unit_zero (S := S512x1024) _ hz]

theorem sA1 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : cond0_0 i) (hc1 : ¬cond0_1 i)
    (x0 : Vec F S512x1024 .f32) (x1 : Vec F S512x1024 .f32) (x2 : Vec F S512x1024 .bf16) :
    sout0_A_1 c i arg2 harg2 arg3 harg3 arg4 harg4 arg5 harg5 arg6 harg6 arg7 harg7 arg8 harg8 hc0 hc1 x0 x1 x2 = k0_pay10 x0 x1 k0_pay3 k0_pay4 := by
  unfold sout0_A_1
  rw [View.read_writes_eq_canon _ _ _ (scover0_A_1 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero hz]
  simp only [View.readAt_eq_ld, harg2.read_unread, harg3.read_unread, harg4.read_unread, harg6.read_unread, harg7.read_unread, harg8.read_unread, View.ld_unit_zero (S := S512x1024) hz, View.ld_unit_zero (S := S512x1) hz, View.readCov_unit_zero (S := S512x1) _ hz, View.readCov_unit_zero (S := S512x1024) _ hz]

theorem sA2 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : cond0_0 i) (hc1 : ¬cond0_1 i)
    (x0 : Vec F S512x1024 .f32) (x1 : Vec F S512x1024 .f32) (x2 : Vec F S512x1024 .bf16) :
    sout0_A_2 c i arg2 harg2 arg3 harg3 arg4 harg4 arg5 harg5 arg6 harg6 arg7 harg7 arg8 harg8 hc0 hc1 x0 x1 x2 = k0_pay11 x0 x1 k0_pay3 x2 k0_pay5 := by
  unfold sout0_A_2
  rw [View.read_writes_eq_canon _ _ _ (scover0_A_2 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero hz]
  simp only [View.readAt_eq_ld, harg2.read_unread, harg3.read_unread, harg4.read_unread, harg6.read_unread, harg7.read_unread, harg8.read_unread, View.ld_unit_zero (S := S512x1024) hz, View.ld_unit_zero (S := S512x1) hz, View.readCov_unit_zero (S := S512x1) _ hz, View.readCov_unit_zero (S := S512x1024) _ hz]

end Cert.Attn.Pieces

end
-- ==== Proof.LibDotRows.lean ====
/-
  A matrix product whose two operands both carry the contracted axis LAST. For dimension numbers that contract the last
  axis of the left operand `[M, K]` against the last axis of the right operand `[N, K]`, with no batch axis, the
  contraction sum at row `a` and column `b` of the `[M, N]` result is the sum over `k` of `l (a, k) * r (b, k)`: the left
  operand times the transpose of the right one. Stated for the accumulate-into-zero product of the matrix unit and for
  the host's general dot product, at the exact extended-real instance.
-/
import Idealize.ShloMosaic.Lib.ValueIdx
import Idealize.ShloMosaic.PureOps.Ideal.Laws

noncomputable section

open scoped BigOperators

namespace Cert.LibDotRows

open Idealize.ShloMosaic Idealize.ShloMosaic.ValueIdx

/-- The six axis lists of a product that contracts the last axis of both operands. -/
structure IsRows {M K N : Nat} (D : DotDims ⟨2, ![M, K]⟩ ⟨2, ![N, K]⟩ ⟨2, ![M, N]⟩) : Prop where
  lc : D.lhsContracting = [1]
  rc : D.rhsContracting = [1]
  ln : D.lhsNonContracting = [0]
  rn : D.rhsNonContracting = [0]
  lb : D.lhsBatch = []
  rb : D.rhsBatch = []

variable {M K N : Nat} (D : DotDims ⟨2, ![M, K]⟩ ⟨2, ![N, K]⟩ ⟨2, ![M, N]⟩) (hD : IsRows D)

include hD in
theorem contr_rank : D.contr.rank = 1 := by rw [D.rank_contr, hD.lc]; rfl

include hD in
theorem contr_size : D.contr.size ⟨0, by rw [contr_rank D hD]; exact Nat.one_pos⟩ = K := by
  have h := D.size_contr 0 (by rw [hD.lc]; exact Nat.one_pos)
  rw [h]
  simp only [hD.lc]
  rfl

include hD in
/-- The left operand is read at the result's row. -/
theorem lhs0 (j : (⟨2, ![M, N]⟩ : Shape).Idx) (q : D.contr.Idx) : (D.lhsIdx j q 0).val = (j 0).val := by
  unfold DotDims.lhsIdx
  rw [dif_neg (by rw [hD.lb]; exact List.not_mem_nil), dif_pos (by rw [hD.ln]; exact List.mem_singleton.mpr rfl)]
  simp only [Fin.val_cast]
  have key : ∀ (p p' : Nat) (hp : p < 2) (hp' : p' < 2), p = p' → (j ⟨p, hp⟩).val = (j ⟨p', hp'⟩).val :=
    fun p p' hp hp' h => by subst h; rfl
  exact key _ _ _ _ (by simp [hD.lb, hD.ln])

include hD in
/-- The right operand's ROW is the result's column. -/
theorem rhs0 (j : (⟨2, ![M, N]⟩ : Shape).Idx) (q : D.contr.Idx) : (D.rhsIdx j q 0).val = (j 1).val := by
  unfold DotDims.rhsIdx
  rw [dif_neg (by rw [hD.rb]; exact List.not_mem_nil), dif_pos (by rw [hD.rn]; exact List.mem_singleton.mpr rfl)]
  simp only [Fin.val_cast]
  have key : ∀ (p p' : Nat) (hp : p < 2) (hp' : p' < 2), p = p' → (j ⟨p, hp⟩).val = (j ⟨p', hp'⟩).val :=
    fun p p' hp hp' h => by subst h; rfl
  exact key _ _ _ _ (by simp [hD.lb, hD.ln, hD.rn])

include hD in
/-- The contraction sum at (a, b) is the sum over `k` of row `a` of the left operand times row `b` of the right one. -/
theorem rows_sum (l : (⟨2, ![M, K]⟩ : Shape).Idx → EReal) (r : (⟨2, ![N, K]⟩ : Shape).Idx → EReal) (a : Fin M) (b : Fin N) :
    ∑ q : D.contr.Idx, l (D.lhsIdx (ix2 a b) q) * r (D.rhsIdx (ix2 a b) q) = ∑ k : Fin K, l (ix2 a k) * r (ix2 b k) := by
  rw [← Equiv.sum_comp (contrEquiv1 D K (contr_rank D hD) (contr_size D hD)).symm]
  refine Finset.sum_congr rfl fun k _ => ?_
  have hk := contrEquiv1_symm_val D K (contr_rank D hD) (contr_size D hD) k
  have el : D.lhsIdx (ix2 a b) ((contrEquiv1 D K (contr_rank D hD) (contr_size D hD)).symm k) = ix2 a k :=
    funext fun x => Fin.ext (by
      match x with
      | ⟨0, _⟩ => exact lhs0 D hD _ _
      | ⟨1, _⟩ => exact (D.lhsIdx_val_of_single hD.lc _ _).trans hk)
  have er : D.rhsIdx (ix2 a b) ((contrEquiv1 D K (contr_rank D hD) (contr_size D hD)).symm k) = ix2 b k :=
    funext fun x => Fin.ext (by
      match x with
      | ⟨0, _⟩ => exact rhs0 D hD _ _
      | ⟨1, _⟩ => exact (D.rhsIdx_val_of_single hD.rc _ _).trans hk)
  rw [el, er]

include hD in
/-- The matrix unit's product into a zero accumulator, at an entry. -/
theorem matmul_zero_apply {φ₁ φ₂ : FTy} (prec : Option ContractPrecision)
    (l : FVec Ideal ⟨2, ![M, K]⟩ φ₁) (r : FVec Ideal ⟨2, ![N, K]⟩ φ₂) (a : Fin M) (b : Fin N) :
    FloatOps.matmul D prec l r (constant ⟨2, ![M, N]⟩ .f32 0x00000000#32) (ix2 a b) = ∑ k : Fin K, l (ix2 a k) * r (ix2 b k) :=
  (Ideal.matmul_constant_zero_apply D prec l r (ix2 a b)).trans (rows_sum D hD l r a b)

include hD in
/-- The host's general dot product, at an entry. -/
theorem dotGeneral_apply {φ₁ φ₂ : FTy} (prec : Option ContractPrecision) (sched : HostSchedule)
    (l : FVec Ideal ⟨2, ![M, K]⟩ φ₁) (r : FVec Ideal ⟨2, ![N, K]⟩ φ₂) (a : Fin M) (b : Fin N) :
    FloatOps.dotGeneral D prec sched l r (ix2 a b) = ∑ k : Fin K, l (ix2 a k) * r (ix2 b k) :=
  (Ideal.dotGeneral_apply D prec sched l r (ix2 a b)).trans (rows_sum D hD l r a b)

end Cert.LibDotRows

end
-- ==== Proof.LibDot.lean ====
/-
  A plain matrix product read at an entry. For dimension numbers that contract the left operand's columns against the
  right operand's rows, with no batch axis, the contraction sum at row `a` and column `b` is the textbook
  sum over `k` of `l (a, k) * r (k, b)`, both for the accumulate-into-zero product of the matrix unit and for
  the host's general dot product, at the exact extended-real instance.
-/
import Idealize.ShloMosaic.Lib.ValueIdx
import Idealize.ShloMosaic.PureOps.Ideal.Laws

noncomputable section

open scoped BigOperators

namespace Cert.LibDot

open Idealize.ShloMosaic Idealize.ShloMosaic.ValueIdx

/-- The six axis lists of a rows-by-columns product. -/
structure IsPlain {M K N : Nat} (D : DotDims ⟨2, ![M, K]⟩ ⟨2, ![K, N]⟩ ⟨2, ![M, N]⟩) : Prop where
  lc : D.lhsContracting = [1]
  rc : D.rhsContracting = [0]
  ln : D.lhsNonContracting = [0]
  rn : D.rhsNonContracting = [1]
  lb : D.lhsBatch = []
  rb : D.rhsBatch = []

variable {M K N : Nat} (D : DotDims ⟨2, ![M, K]⟩ ⟨2, ![K, N]⟩ ⟨2, ![M, N]⟩) (hD : IsPlain D)

include hD in
theorem contr_rank : D.contr.rank = 1 := by rw [D.rank_contr, hD.lc]; rfl

include hD in
theorem contr_size : D.contr.size ⟨0, by rw [contr_rank D hD]; exact Nat.one_pos⟩ = K := by
  have h := D.size_contr 0 (by rw [hD.lc]; exact Nat.one_pos)
  rw [h]
  simp only [hD.lc]
  rfl

include hD in
/-- The left operand is read at row `a` of the result and at the contraction coordinate. -/
theorem lhs0 (j : (⟨2, ![M, N]⟩ : Shape).Idx) (q : D.contr.Idx) : (D.lhsIdx j q 0).val = (j 0).val := by
  unfold DotDims.lhsIdx
  rw [dif_neg (by rw [hD.lb]; exact List.not_mem_nil), dif_pos (by rw [hD.ln]; exact List.mem_singleton.mpr rfl)]
  simp only [Fin.val_cast]
  have key : ∀ (p p' : Nat) (hp : p < 2) (hp' : p' < 2), p = p' → (j ⟨p, hp⟩).val = (j ⟨p', hp'⟩).val :=
    fun p p' hp hp' h => by subst h; rfl
  exact key _ _ _ _ (by simp [hD.lb, hD.ln])

include hD in
theorem rhs1 (j : (⟨2, ![M, N]⟩ : Shape).Idx) (q : D.contr.Idx) : (D.rhsIdx j q 1).val = (j 1).val := by
  unfold DotDims.rhsIdx
  rw [dif_neg (by rw [hD.rb]; exact List.not_mem_nil), dif_pos (by rw [hD.rn]; exact List.mem_singleton.mpr rfl)]
  simp only [Fin.val_cast]
  have key : ∀ (p p' : Nat) (hp : p < 2) (hp' : p' < 2), p = p' → (j ⟨p, hp⟩).val = (j ⟨p', hp'⟩).val :=
    fun p p' hp hp' h => by subst h; rfl
  exact key _ _ _ _ (by simp [hD.lb, hD.ln, hD.rn])

include hD in
/-- The contraction sum at (a, b) is the sum over `k` of the row entry times the column entry. -/
theorem plain_sum (l : (⟨2, ![M, K]⟩ : Shape).Idx → EReal) (r : (⟨2, ![K, N]⟩ : Shape).Idx → EReal) (a : Fin M) (b : Fin N) :
    ∑ q : D.contr.Idx, l (D.lhsIdx (ix2 a b) q) * r (D.rhsIdx (ix2 a b) q) = ∑ k : Fin K, l (ix2 a k) * r (ix2 k b) := by
  rw [← Equiv.sum_comp (contrEquiv1 D K (contr_rank D hD) (contr_size D hD)).symm]
  refine Finset.sum_congr rfl fun k _ => ?_
  have hk := contrEquiv1_symm_val D K (contr_rank D hD) (contr_size D hD) k
  have el : D.lhsIdx (ix2 a b) ((contrEquiv1 D K (contr_rank D hD) (contr_size D hD)).symm k) = ix2 a k :=
    funext fun x => Fin.ext (by
      match x with
      | ⟨0, _⟩ => exact lhs0 D hD _ _
      | ⟨1, _⟩ => exact (D.lhsIdx_val_of_single hD.lc _ _).trans hk)
  have er : D.rhsIdx (ix2 a b) ((contrEquiv1 D K (contr_rank D hD) (contr_size D hD)).symm k) = ix2 k b :=
    funext fun x => Fin.ext (by
      match x with
      | ⟨0, _⟩ => exact (D.rhsIdx_val_of_single hD.rc _ _).trans hk
      | ⟨1, _⟩ => exact rhs1 D hD _ _)
  rw [el, er]

include hD in
/-- The matrix unit's product into a zero accumulator, at an entry. -/
theorem matmul_zero_apply {φ₁ φ₂ : FTy} (prec : Option ContractPrecision)
    (l : FVec Ideal ⟨2, ![M, K]⟩ φ₁) (r : FVec Ideal ⟨2, ![K, N]⟩ φ₂) (a : Fin M) (b : Fin N) :
    FloatOps.matmul D prec l r (constant ⟨2, ![M, N]⟩ .f32 0x00000000#32) (ix2 a b) = ∑ k : Fin K, l (ix2 a k) * r (ix2 k b) :=
  (Ideal.matmul_constant_zero_apply D prec l r (ix2 a b)).trans (plain_sum D hD l r a b)

include hD in
/-- The host's general dot product, at an entry. -/
theorem dotGeneral_apply {φ₁ φ₂ : FTy} (prec : Option ContractPrecision) (sched : HostSchedule)
    (l : FVec Ideal ⟨2, ![M, K]⟩ φ₁) (r : FVec Ideal ⟨2, ![K, N]⟩ φ₂) (a : Fin M) (b : Fin N) :
    FloatOps.dotGeneral D prec sched l r (ix2 a b) = ∑ k : Fin K, l (ix2 a k) * r (ix2 k b) :=
  (Ideal.dotGeneral_apply D prec sched l r (ix2 a b)).trans (plain_sum D hD l r a b)

end Cert.LibDot

end
-- ==== Proof.LibCol.lean ====
/-
  Columns and rows read at an index: a vector of `a` entries laid out as a column `[a, 1]` or a row `[1, a]`, a column
  repeated along `b` lanes, and the source index of a reduction over the last axis of a two-axis array.
-/
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.LibCol

open Idealize.ShloMosaic Idealize.ShloMosaic.ValueIdx

variable {α : Type}

/-- An `[a]` vector cast to a column `[a, 1]` reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column `[a, 1]` repeated along `b` lanes reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's layout of an `[a]` vector as a column `[a, 1]` reads, at `(p, u)`, the vector at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- The host's repetition of a column `[a, 1]` along `b` lanes reads, at `(p, c)`, the column at `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- The host's layout of an `[a]` vector as a row `[1, a]` reads, at `(u, q)`, the vector at `q`. -/
theorem broadcastInDim_a_1a_apply {a : ℕ} (x : (⟨1, ![a]⟩ : Shape).Idx → α)
    (h : (⟨1, ![a]⟩ : Shape).BroadcastsInDim ⟨2, ![1, a]⟩ ![1]) (u : Fin 1) (q : Fin a) :
    broadcastInDim ⟨2, ![1, a]⟩ ![1] h x (ix2 u q) = x (ix1 q) := by
  refine broadcastInDim_apply ![1] h x (ix2 u q) (ix1 q) fun ax => ?_
  match ax with
  | ⟨0, _⟩ =>
    show q.val = if a = 1 then 0 else q.val
    split
    · have := q.isLt; omega
    · rfl

/-- Reducing a two-axis array over its last axis: the source index over row `p` with lane `k` is `(p, k)`. -/
theorem lift_last {R C : ℕ} (h : (⟨2, ![R, C]⟩ : Shape).Reduces [1] ⟨1, ![R]⟩) (p : Fin R) (k : Fin C) :
    h.lift (ix1 p) k = ix2 p k :=
  funext fun c => Fin.ext (by
    match c with
    | ⟨0, _⟩ => rfl
    | ⟨1, _⟩ => rfl)

/-- Reducing a two-axis array over its first axis: the source index over lane `q` with row `k` is `(k, q)`. -/
theorem lift_first {R C : ℕ} (h : (⟨2, ![R, C]⟩ : Shape).Reduces [0] ⟨1, ![C]⟩) (q : Fin C) (k : Fin R) :
    h.lift (ix1 q) k = ix2 k q :=
  funext fun c => Fin.ext (by
    match c with
    | ⟨0, _⟩ => rfl
    | ⟨1, _⟩ => rfl)

end Cert.LibCol

end
-- ==== Proof.LibRowReduce.lean ====
/-
  Row and column reductions of a two-axis array read at an index, at the exact extended-real instance: the minimum,
  maximum and sum of a row `p` of an `[R, C]` array are the fold of `min` / `max` from the accumulator's value, or the sum, over
  the row's entries `src (p, c)`; the sum over the rows of a one-column array `[R, 1]` is the sum of its entries.
-/
import Idealize.ShloMosaic.Lib.ValueIdx
import Idealize.ShloMosaic.PureOps.Ideal.Laws
import Idealize.ShloMosaic.PureOps.Reduce
import proofs.«153183_j7206955123485_2_alg».proof.Proof.LibCol

noncomputable section

open scoped BigOperators

namespace Cert.LibRowReduce

open Idealize.ShloMosaic Idealize.ShloMosaic.ValueIdx

variable {R C : ℕ}

/-- The least entry of row `p`, from the accumulator's value. -/
theorem row_min (src : FVec Ideal ⟨2, ![R, C]⟩ .f32) (acc : BitVec 32) (h : (⟨2, ![R, C]⟩ : Shape).Reduces [1] ⟨1, ![R]⟩)
    (hφ : FKind.Formats .f32) (hacc : acc = FKind.minimumf.neutral .f32 hφ) (p : Fin R) :
    multiReduction .minimumf [1] ⟨1, ![R]⟩ src acc h hφ hacc (ix1 p)
      = (Finset.univ : Finset (Fin C)).fold min (Ideal.ofBits .f32 acc) fun c => src (ix2 p c) := by
  rw [multiReduction_minimumf_eq_fold]
  refine (h.fold_filter_drop_single _ _ src (ix1 p)).trans ?_
  exact congrArg (fun f => Finset.fold min (Ideal.ofBits .f32 acc) f (Finset.univ : Finset (Fin C)))
    (funext fun c => congrArg src (LibCol.lift_last h p c))

/-- The greatest entry of row `p`, from the accumulator's value. -/
theorem row_max (src : FVec Ideal ⟨2, ![R, C]⟩ .f32) (acc : BitVec 32) (h : (⟨2, ![R, C]⟩ : Shape).Reduces [1] ⟨1, ![R]⟩)
    (hφ : FKind.Formats .f32) (hacc : acc = FKind.maximumf.neutral .f32 hφ) (p : Fin R) :
    multiReduction .maximumf [1] ⟨1, ![R]⟩ src acc h hφ hacc (ix1 p)
      = (Finset.univ : Finset (Fin C)).fold max (Ideal.ofBits .f32 acc) fun c => src (ix2 p c) := by
  rw [multiReduction_maximumf_eq_fold]
  refine (h.fold_filter_drop_single _ _ src (ix1 p)).trans ?_
  exact congrArg (fun f => Finset.fold max (Ideal.ofBits .f32 acc) f (Finset.univ : Finset (Fin C)))
    (funext fun c => congrArg src (LibCol.lift_last h p c))

/-- The sum of row `p`. -/
theorem row_sum (src : FVec Ideal ⟨2, ![R, C]⟩ .f32) (acc : BitVec 32) (h : (⟨2, ![R, C]⟩ : Shape).Reduces [1] ⟨1, ![R]⟩)
    (hφ : FKind.Formats .f32) (hacc : acc = FKind.add.neutral .f32 hφ) (p : Fin R) :
    multiReduction .add [1] ⟨1, ![R]⟩ src acc h hφ hacc (ix1 p) = ∑ c : Fin C, src (ix2 p c) :=
  (Ideal.multiReduction_add_single src acc h hφ hacc (ix1 p)).trans
    (Finset.sum_congr rfl fun c _ => congrArg src (LibCol.lift_last h p c))

/-- The sum of a column `q` over the rows. -/
theorem col_sum (src : FVec Ideal ⟨2, ![R, C]⟩ .f32) (acc : BitVec 32) (h : (⟨2, ![R, C]⟩ : Shape).Reduces [0] ⟨1, ![C]⟩)
    (hφ : FKind.Formats .f32) (hacc : acc = FKind.add.neutral .f32 hφ) (q : Fin C) :
    multiReduction .add [0] ⟨1, ![C]⟩ src acc h hφ hacc (ix1 q) = ∑ r : Fin R, src (ix2 r q) :=
  (Ideal.multiReduction_add_single src acc h hφ hacc (ix1 q)).trans
    (Finset.sum_congr rfl fun r _ => congrArg src (LibCol.lift_first h q r))

end Cert.LibRowReduce

end
-- ==== Proof.Payload.lean ====
/-
  The arithmetic of one grid point of the attention kernel, read entry by entry on the extended reals.

  At a point the body sees a block of 512 query rows `x0`, a block of 512 key rows `x1`, the matching 512 rows of the
  value matrix `x2`, and the three carried arrays: the running offset `xs0` (a column), the running sum of weights
  `xs1` (a column) and the running weighted sums `xs2`. Row `r`, key `j` of the block has the score
  `sc x0 x1 r j = Σ_k x0 (r, k) * x1 (j, k)`; the new offset is the larger of the old one and the largest score of the
  row; the old sums are rescaled by exp (old offset - new offset) and the block's weights exp (score - new offset) are
  added. At the last block of keys the result is the weighted sums times (1 / sum of weights) times the constant 2^-5.
-/
import proofs.«153183_j7206955123485_2_alg».proof.Proof.Gen.KernelIdeal.Skeleton
import proofs.«153183_j7206955123485_2_alg».proof.Proof.LibDotRows
import proofs.«153183_j7206955123485_2_alg».proof.Proof.LibDot
import proofs.«153183_j7206955123485_2_alg».proof.Proof.LibRowReduce
import Idealize.ShloMosaic.Lib.ValueIdx
import Idealize.ShloMosaic.Lib.Pipeline.Value
import Idealize.ShloMosaic.Lib.ValueLayout

noncomputable section

open scoped BigOperators

namespace Cert.Attn.Pay

open Cert.KernelIdeal Cert.KernelIdeal.Gen Idealize.ShloMosaic Idealize.ShloMosaic.ValueIdx

variable (x0 x1 : Vec Ideal S512x1024 .f32) (x2 : Vec Ideal S512x1024 .bf16)
  (xs0 xs1 : Vec Ideal S512x1 .f32) (xs2 : Vec Ideal S512x1024 .f32)

/-- The score of query row `r` of the block against key row `j` of the block. -/
def sc (r j : Fin 512) : EReal := ∑ k : Fin 1024, x0 (ix2 r k) * x1 (ix2 j k)

/-- The largest score of row `r` against the block's keys (minus infinity for an empty fold). -/
def rowmax (r : Fin 512) : EReal := (Finset.univ : Finset (Fin 512)).fold max ⊥ fun j => sc x0 x1 r j

/-- The bit pattern of minus infinity reads as the bottom of the extended reals. -/
theorem ofBits_neg_inf : Ideal.ofBits .f32 0xFF800000#32 = (⊥ : EReal) := by
  simp [Ideal.ofBits, Ideal.ieee]

/-- The logits of the block: rows of `x0` against rows of `x1`. -/
theorem pay6_apply (r j : Fin 512) : k0_pay6 (F := Ideal) x0 x1 (ix2 r j) = sc x0 x1 r j := by
  unfold k0_pay6
  exact LibDotRows.matmul_zero_apply dot_S512x1024_S512x1024_S512x512_1_1_0_0_n_n ⟨rfl, rfl, rfl, rfl, rfl, rfl⟩
    (some .fp32) x0 x1 r j

/-- The new offset: the larger of the old offset and the row's largest score. -/
theorem pay7_apply (r : Fin 512) (u : Fin 1) :
    k0_pay7 (F := Ideal) x0 x1 xs0 (ix2 r u) = max (xs0 (ix2 r u)) (rowmax x0 x1 r) := by
  unfold k0_pay7
  show max (xs0 (ix2 r u)) (shapeCast S512x1 _ shapeCasts_S512_S512x1 (ix2 r u)) = _
  refine congrArg (max (xs0 (ix2 r u))) ?_
  refine (LibCol.shapeCast_a_a1_apply _ shapeCasts_S512_S512x1 r u).trans ?_
  refine (LibRowReduce.row_max (k0_pay6 (F := Ideal) x0 x1) _ _ _ _ r).trans ?_
  unfold rowmax
  rw [ofBits_neg_inf]
  exact congrArg (fun f => Finset.fold max ⊥ f (Finset.univ : Finset (Fin 512))) (funext fun j => pay6_apply x0 x1 r j)

/-- The rescaling factor exp (old offset - new offset). -/
theorem pay8_apply (r : Fin 512) (u : Fin 1) :
    k0_pay8 (F := Ideal) x0 x1 xs0 (ix2 r u) = Ideal.exp (xs0 (ix2 r u) - k0_pay7 (F := Ideal) x0 x1 xs0 (ix2 r u)) := by
  rfl

/-- The block's weights exp (score - new offset). -/
theorem pay9_apply (r j : Fin 512) :
    k0_pay9 (F := Ideal) x0 x1 xs0 (ix2 r j) = Ideal.exp (sc x0 x1 r j - k0_pay7 (F := Ideal) x0 x1 xs0 (ix2 r (0 : Fin 1))) := by
  unfold k0_pay9
  show Ideal.exp (k0_pay6 (F := Ideal) x0 x1 (ix2 r j)
    - broadcastTo S512x512 (k0_pay7 (F := Ideal) x0 x1 xs0) broadcasts_S512x1_S512x512 (ix2 r j)) = _
  rw [pay6_apply, LibCol.broadcastTo_a1_ab_apply (k0_pay7 (F := Ideal) x0 x1 xs0) broadcasts_S512x1_S512x512 r j]

/-- The new sum of weights: the old one rescaled, plus the block's weights. -/
theorem pay10_apply (r : Fin 512) (u : Fin 1) :
    k0_pay10 (F := Ideal) x0 x1 xs0 xs1 (ix2 r u)
      = k0_pay8 (F := Ideal) x0 x1 xs0 (ix2 r u) * xs1 (ix2 r u) + ∑ j : Fin 512, k0_pay9 (F := Ideal) x0 x1 xs0 (ix2 r j) := by
  unfold k0_pay10
  rw [shapeCast_self]
  show k0_pay8 (F := Ideal) x0 x1 xs0 (ix2 r u) * xs1 (ix2 r u)
    + shapeCast S512x1 _ shapeCasts_S512_S512x1 (ix2 r u) = _
  refine congrArg (fun t => k0_pay8 (F := Ideal) x0 x1 xs0 (ix2 r u) * xs1 (ix2 r u) + t) ?_
  refine (LibCol.shapeCast_a_a1_apply _ shapeCasts_S512_S512x1 r u).trans ?_
  exact LibRowReduce.row_sum (k0_pay9 (F := Ideal) x0 x1 xs0) _ _ _ _ r

/-- The new weighted sums: the old ones rescaled, plus the block's weights against the block of the value matrix. -/
theorem pay11_apply (r : Fin 512) (c : Fin 1024) :
    k0_pay11 (F := Ideal) x0 x1 xs0 x2 xs2 (ix2 r c)
      = k0_pay8 (F := Ideal) x0 x1 xs0 (ix2 r (0 : Fin 1)) * xs2 (ix2 r c)
        + ∑ j : Fin 512, k0_pay9 (F := Ideal) x0 x1 xs0 (ix2 r j) * x2 (ix2 j c) := by
  unfold k0_pay11
  simp only [shapeCast_self]
  show broadcastTo S512x1024 (k0_pay8 (F := Ideal) x0 x1 xs0) broadcasts_S512x1_S512x1024 (ix2 r c) * xs2 (ix2 r c)
    + FloatOps.matmul dot_S512x512_S512x1024_S512x1024_1_0_0_1_n_n none
        (truncf .bf16 (k0_pay9 (F := Ideal) x0 x1 xs0) bitsLt_bf16_f32) x2
        (constant S512x1024 .f32 0x00000000#32) (ix2 r c) = _
  rw [LibCol.broadcastTo_a1_ab_apply (k0_pay8 (F := Ideal) x0 x1 xs0) broadcasts_S512x1_S512x1024 r c]
  refine congrArg (fun t => k0_pay8 (F := Ideal) x0 x1 xs0 (ix2 r (0 : Fin 1)) * xs2 (ix2 r c) + t) ?_
  exact LibDot.matmul_zero_apply dot_S512x512_S512x1024_S512x1024_1_0_0_1_n_n ⟨rfl, rfl, rfl, rfl, rfl, rfl⟩ none
    (truncf .bf16 (k0_pay9 (F := Ideal) x0 x1 xs0) bitsLt_bf16_f32) x2 r c

/-- The result of a row block: the weighted sums times (1 / sum of weights) times 2^-5. -/
theorem pay2_apply (l : Vec Ideal S512x1 .f32) (acc : Vec Ideal S512x1024 .f32) (r : Fin 512) (c : Fin 1024) :
    k0_pay2 (F := Ideal) l acc (ix2 r c)
      = acc (ix2 r c) * (Ideal.div (Ideal.ofBits .f32 0x3F800000#32) (l (ix2 r (0 : Fin 1))) * Ideal.ofBits .f32 0x3D000000#32) := by
  unfold k0_pay2
  show acc (ix2 r c) * broadcastTo S512x1024 _ broadcasts_S512x1_S512x1024 (ix2 r c) = _
  refine congrArg (fun t => acc (ix2 r c) * t) ?_
  refine (LibCol.broadcastTo_a1_ab_apply _ broadcasts_S512x1_S512x1024 r c).trans ?_
  rfl

/-- Storing a column through a same-shape cast stores the column. -/
theorem pay1_eq (v : FVec Ideal S512x1 .f32) : k0_pay1 (F := Ideal) v = v := by
  unfold k0_pay1
  exact shapeCast_self v _

/-- The offset starts at minus infinity. -/
theorem pay3_apply (y : S512x1.Idx) : k0_pay3 (F := Ideal) y = ⊥ := by
  unfold k0_pay3
  rw [shapeCast_self]
  exact ofBits_neg_inf

/-- The sum of weights starts at zero. -/
theorem pay4_apply (y : S512x1.Idx) : k0_pay4 (F := Ideal) y = 0 := by
  unfold k0_pay4
  rw [shapeCast_self]
  exact Ideal.ofBits_zero_f32

/-- The weighted sums start at zero. -/
theorem pay5_apply (y : S512x1024.Idx) : k0_pay5 (F := Ideal) y = 0 := by
  unfold k0_pay5
  rw [shapeCast_self]
  exact Ideal.ofBits_zero_f32

end Cert.Attn.Pay

end
-- ==== Proof.LibTileSum.lean ====
/-
  Regrouping finite sums indexed by `Fin`: a sum over `T * B` indices as `T` consecutive tiles of `B`,
  dropping a tail on which the summand vanishes, and a sum over `Fin n` as a sum over `Finset.range n`.
  Everything holds in any additive commutative monoid.
-/
import Mathlib.Algebra.BigOperators.Fin
import Mathlib.Logic.Equiv.Fin.Basic
import Mathlib.Tactic.Ring

namespace TileSum

open Finset

/-- The `j`-th index of the `t`-th tile of width `B` lies below `T * B`. -/
theorem tile_lt {T B : ℕ} (t : Fin T) (j : Fin B) : t.val * B + j.val < T * B := by
  have h1 : t.val * B + j.val < (t.val + 1) * B := by
    have := j.isLt
    rw [Nat.add_mul, Nat.one_mul]; omega
  exact lt_of_lt_of_le h1 (Nat.mul_le_mul_right B t.isLt)

/-- A sum over `T * B` indices, regrouped into `T` consecutive tiles of `B` indices each. -/
theorem sum_tiles {M : Type*} [AddCommMonoid M] {T B : ℕ} (f : Fin (T * B) → M) :
    ∑ t : Fin T, ∑ j : Fin B, f ⟨t.val * B + j.val, tile_lt t j⟩ = ∑ i : Fin (T * B), f i := by
  rw [← Equiv.sum_comp (finProdFinEquiv (m := T) (n := B)) f, Fintype.sum_prod_type]
  refine Fintype.sum_congr _ _ fun t => Fintype.sum_congr _ _ fun j => ?_
  congr 1
  apply Fin.ext
  simp only [finProdFinEquiv_apply_val]
  rw [Nat.mul_comm, Nat.add_comm]

/-- A sum over `n + e` indices whose summand vanishes from index `n` on is the sum over the first `n`. -/
theorem sum_drop_zero_tail {M : Type*} [AddCommMonoid M] {n e : ℕ} (f : Fin (n + e) → M)
    (h0 : ∀ i : Fin (n + e), n ≤ i.val → f i = 0) :
    ∑ i : Fin (n + e), f i = ∑ i : Fin n, f (Fin.castAdd e i) := by
  rw [Fin.sum_univ_add]
  have hz : ∑ j : Fin e, f (Fin.natAdd n j) = 0 :=
    Finset.sum_eq_zero fun j _ => h0 _ (by simp [Fin.natAdd])
  rw [hz, add_zero]

/-- Fourteen tiles of `384` cover `5376 = 5324 + 52` indices: when the summand vanishes from index `5324` on,
the tiled sum is the sum over the first `5324` indices. -/
theorem sum_tiles_14_384 {M : Type*} [AddCommMonoid M] (f : Fin 5376 → M)
    (h0 : ∀ i : Fin 5376, 5324 ≤ i.val → f i = 0) :
    ∑ t : Fin 14, ∑ j : Fin 384, f ⟨384 * t.val + j.val, by have := t.isLt; have := j.isLt; omega⟩
      = ∑ i : Fin 5324, f ⟨i.val, by have := i.isLt; omega⟩ := by
  have h1 := sum_tiles (T := 14) (B := 384) (M := M) f
  have h2 := sum_drop_zero_tail (n := 5324) (e := 52) (M := M) f h0
  have e1 : ∑ t : Fin 14, ∑ j : Fin 384, f ⟨384 * t.val + j.val, by have := t.isLt; have := j.isLt; omega⟩
      = ∑ t : Fin 14, ∑ j : Fin 384, f ⟨t.val * 384 + j.val, tile_lt t j⟩ :=
    Fintype.sum_congr _ _ fun t => Fintype.sum_congr _ _ fun j => by
      congr 1; apply Fin.ext; show 384 * t.val + j.val = t.val * 384 + j.val; rw [Nat.mul_comm]
  rw [e1, h1]
  exact h2

/-- A sum over `Fin 14` of a function of the index's value is the sum over `Finset.range 14`. -/
theorem sum_fin14_eq_range {M : Type*} [AddCommMonoid M] (P : ℕ → M) :
    ∑ t : Fin 14, P t.val = (Finset.range 14).sum P :=
  Fin.sum_univ_eq_sum_range P 14

/-- A sum over `Fin n` of a function of the index's value is the sum over `Finset.range n`. -/
theorem sum_fin_eq_range {M : Type*} [AddCommMonoid M] (n : ℕ) (P : ℕ → M) :
    ∑ t : Fin n, P t.val = (Finset.range n).sum P :=
  Fin.sum_univ_eq_sum_range P n

end TileSum
-- ==== Proof.Softmax.lean ====
/-
  The arithmetic of a softmax-weighted sum accumulated block by block, over the real numbers.

  For one query row the scores against the 4096 keys are a function `s : Fin 4096 → ℝ`, and one column of the value
  matrix is a function `w : Fin 4096 → ℝ`. The keys are visited in 8 blocks of 512. Relative to ANY real offset μ put

    E μ n = Σ over the first n blocks of exp (s j - μ),        A μ n = Σ over the first n blocks of exp (s j - μ) * w j.

  * Changing the offset from μ to μ' multiplies both by exp (μ - μ'); so one accumulation step
    "rescale by exp (μ - μ'), then add block n at the new offset" sends E μ n to E μ' (n + 1) and A μ n to A μ' (n + 1),
    whatever the new offset μ' is (the running maximum is one choice; nothing below uses that it is a maximum).
  * After the 8 blocks the sums run over all 4096 keys.
  * The normalised result A μ 8 * (1 / E μ 8 * γ) does not depend on the offset, and it is the weighted sum of the
    normalised and scaled weights  Σ_j (exp (s j - M) / E M 8 * γ) * w j  for any other offset M.
-/
import Mathlib.Analysis.SpecialFunctions.Exp
import Mathlib.Algebra.BigOperators.Fin
import Mathlib.Tactic.Ring
import Mathlib.Tactic.FieldSimp
import proofs.«153183_j7206955123485_2_alg».proof.Proof.LibTileSum

noncomputable section

open scoped BigOperators

namespace Cert.Softmax

open Finset

/-- Entry `j` of block `b` of a function of the 4096 keys (zero past the eighth block, which is never read). -/
def blk (f : Fin 4096 → ℝ) (b : ℕ) (j : Fin 512) : ℝ :=
  if h : b < 8 then f ⟨b * 512 + j.val, by have := j.isLt; omega⟩ else 0

theorem blk_of_lt (f : Fin 4096 → ℝ) {b : ℕ} (h : b < 8) (j : Fin 512) :
    blk f b j = f ⟨b * 512 + j.val, by have := j.isLt; omega⟩ := dif_pos h

/-- The sum of the weights exp (s j - μ) over the first `n` blocks. -/
def E (s : Fin 4096 → ℝ) (μ : ℝ) (n : ℕ) : ℝ := ∑ b ∈ range n, ∑ j : Fin 512, Real.exp (blk s b j - μ)

/-- The sum of the weighted values exp (s j - μ) * w j over the first `n` blocks. -/
def A (s w : Fin 4096 → ℝ) (μ : ℝ) (n : ℕ) : ℝ := ∑ b ∈ range n, ∑ j : Fin 512, Real.exp (blk s b j - μ) * blk w b j

theorem E_zero (s : Fin 4096 → ℝ) (μ : ℝ) : E s μ 0 = 0 := by simp [E]
theorem A_zero (s w : Fin 4096 → ℝ) (μ : ℝ) : A s w μ 0 = 0 := by simp [A]

theorem E_succ (s : Fin 4096 → ℝ) (μ : ℝ) (n : ℕ) :
    E s μ (n + 1) = E s μ n + ∑ j : Fin 512, Real.exp (blk s n j - μ) := by
  unfold E; rw [sum_range_succ]

theorem A_succ (s w : Fin 4096 → ℝ) (μ : ℝ) (n : ℕ) :
    A s w μ (n + 1) = A s w μ n + ∑ j : Fin 512, Real.exp (blk s n j - μ) * blk w n j := by
  unfold A; rw [sum_range_succ]

theorem exp_shift (x μ μ' : ℝ) : Real.exp (μ - μ') * Real.exp (x - μ) = Real.exp (x - μ') := by
  rw [← Real.exp_add]; congr 1; ring

/-- Changing the offset rescales the sum of the weights. -/
theorem E_shift (s : Fin 4096 → ℝ) (μ μ' : ℝ) (n : ℕ) : Real.exp (μ - μ') * E s μ n = E s μ' n := by
  unfold E
  rw [mul_sum]
  refine sum_congr rfl fun b _ => ?_
  rw [mul_sum]
  exact sum_congr rfl fun j _ => exp_shift _ _ _

/-- Changing the offset rescales the sum of the weighted values. -/
theorem A_shift (s w : Fin 4096 → ℝ) (μ μ' : ℝ) (n : ℕ) : Real.exp (μ - μ') * A s w μ n = A s w μ' n := by
  unfold A
  rw [mul_sum]
  refine sum_congr rfl fun b _ => ?_
  rw [mul_sum]
  refine sum_congr rfl fun j _ => ?_
  rw [← mul_assoc, exp_shift]

/-- One accumulation step on the sum of the weights. -/
theorem E_step (s : Fin 4096 → ℝ) (μ μ' : ℝ) (n : ℕ) :
    Real.exp (μ - μ') * E s μ n + ∑ j : Fin 512, Real.exp (blk s n j - μ') = E s μ' (n + 1) := by
  rw [E_shift, E_succ]

/-- One accumulation step on the sum of the weighted values. -/
theorem A_step (s w : Fin 4096 → ℝ) (μ μ' : ℝ) (n : ℕ) :
    Real.exp (μ - μ') * A s w μ n + ∑ j : Fin 512, Real.exp (blk s n j - μ') * blk w n j = A s w μ' (n + 1) := by
  rw [A_shift, A_succ]

/-- Eight blocks of 512 are all 4096 keys. -/
theorem sum_blocks (g : Fin 4096 → ℝ) (h : ℕ → Fin 512 → ℝ)
    (hg : ∀ (b : ℕ) (hb : b < 8) (j : Fin 512), h b j = g ⟨b * 512 + j.val, by have := j.isLt; omega⟩) :
    ∑ b ∈ range 8, ∑ j : Fin 512, h b j = ∑ i : Fin 4096, g i := by
  rw [← Fin.sum_univ_eq_sum_range (fun b => ∑ j : Fin 512, h b j) 8]
  rw [← TileSum.sum_tiles (T := 8) (B := 512) (fun i : Fin (8 * 512) => g i)]
  refine Fintype.sum_congr _ _ fun b => Fintype.sum_congr _ _ fun j => ?_
  exact hg b.val b.isLt j

theorem E_full (s : Fin 4096 → ℝ) (μ : ℝ) : E s μ 8 = ∑ i : Fin 4096, Real.exp (s i - μ) :=
  sum_blocks (fun i => Real.exp (s i - μ)) _ fun b hb j => by rw [blk_of_lt s hb]

theorem A_full (s w : Fin 4096 → ℝ) (μ : ℝ) : A s w μ 8 = ∑ i : Fin 4096, Real.exp (s i - μ) * w i :=
  sum_blocks (fun i => Real.exp (s i - μ) * w i) _ fun b hb j => by rw [blk_of_lt s hb, blk_of_lt w hb]

theorem E_pos (s : Fin 4096 → ℝ) (μ : ℝ) : 0 < E s μ 8 := by
  rw [E_full]
  exact Finset.sum_pos (fun i _ => Real.exp_pos _) ⟨⟨0, by norm_num⟩, Finset.mem_univ _⟩

/-- The accumulated, normalised and scaled result is the weighted sum of the normalised and scaled softmax weights
    taken at any other offset. -/
theorem result_eq (s w : Fin 4096 → ℝ) (μ M γ : ℝ) :
    A s w μ 8 * (1 / E s μ 8 * γ)
      = ∑ i : Fin 4096, (Real.exp (s i - M) / (∑ i' : Fin 4096, Real.exp (s i' - M)) * γ) * w i := by
  rw [← A_shift s w M μ 8, ← E_shift s M μ 8, A_full, E_full, Finset.mul_sum, Finset.sum_mul]
  refine Finset.sum_congr rfl fun i _ => ?_
  have he : Real.exp (M - μ) ≠ 0 := Real.exp_ne_zero _
  field_simp

/-- The weighted sum of the normalised and scaled softmax weights, the scores taken relative to the offset `M`. -/
def wsum (s w : Fin 4096 → ℝ) (M γ : ℝ) : ℝ :=
  ∑ i : Fin 4096, (Real.exp (s i - M) / (∑ i' : Fin 4096, Real.exp (s i' - M)) * γ) * w i

theorem result_eq_wsum (s w : Fin 4096 → ℝ) (μ M γ : ℝ) : A s w μ 8 * (1 / E s μ 8 * γ) = wsum s w M γ :=
  result_eq s w μ M γ

/-- The softmax-weighted sum does not depend on the offset. -/
theorem wsum_indep (s w : Fin 4096 → ℝ) (M M' γ : ℝ) : wsum s w M γ = wsum s w M' γ :=
  (result_eq_wsum s w 0 M γ).symm.trans (result_eq_wsum s w 0 M' γ)

end Cert.Softmax

end
-- ==== Proof.LibReal.lean ====
/-
  Real numbers among the extended reals, and two of the host's activation functions on one number.

  * `IsReal x`: the extended real x is a real number. Sums, products, differences, finite sums, the exponential, a
    selection between two real numbers, and a single-precision constant whose exponent field is not all ones are real.
  * An extended real whose absolute value max(x, -x) is below plus infinity is real; so an array that passes the test
    "all |entries| < +inf" has real entries.
  * The scaled exponential linear unit and the softplus as a host program spells them, on one number: the first keeps
    real numbers real, the second sends a real number to a POSITIVE real number (max(r, 0) ≥ 0 and log(1 + e^{-|r|}) > 0;
    the guard "z differs from itself" of the lowering never fires on the extended reals).
  * For a nonzero denominator, a product with the reciprocal 1 / D is the quotient by D (the float 1.0 is the number 1).
-/
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

noncomputable section

open scoped BigOperators

namespace Cert.LibReal

open Idealize.ShloMosaic Idealize.ShloMosaic.ValueIdx

/-- An extended real that is a real number. -/
def IsReal (x : EReal) : Prop := ∃ r : ℝ, x = (r : EReal)

theorem IsReal.coe (r : ℝ) : IsReal (r : EReal) := ⟨r, rfl⟩
theorem IsReal.zero : IsReal 0 := ⟨0, rfl⟩
theorem IsReal.one : IsReal 1 := ⟨1, rfl⟩
theorem IsReal.add {a b : EReal} (ha : IsReal a) (hb : IsReal b) : IsReal (a + b) := by
  obtain ⟨r, rfl⟩ := ha; obtain ⟨s, rfl⟩ := hb; exact ⟨r + s, (EReal.coe_add r s).symm⟩
theorem IsReal.mul {a b : EReal} (ha : IsReal a) (hb : IsReal b) : IsReal (a * b) := by
  obtain ⟨r, rfl⟩ := ha; obtain ⟨s, rfl⟩ := hb; exact ⟨r * s, (EReal.coe_mul r s).symm⟩
theorem IsReal.sub {a b : EReal} (ha : IsReal a) (hb : IsReal b) : IsReal (a - b) := by
  obtain ⟨r, rfl⟩ := ha; obtain ⟨s, rfl⟩ := hb; exact ⟨r - s, (EReal.coe_sub r s).symm⟩
theorem IsReal.exp {a : EReal} (ha : IsReal a) : IsReal (Ideal.exp a) := by
  obtain ⟨r, rfl⟩ := ha; exact ⟨Real.exp r, rfl⟩

/-- A positive real number, as an extended real, is above zero. -/
theorem pos_of_real {s : EReal} (h : ∃ r : ℝ, 0 < r ∧ s = (r : EReal)) : 0 < s := by
  obtain ⟨r, hr, rfl⟩ := h; exact EReal.coe_pos.mpr hr

/-- A finite sum of real numbers, taken in the extended reals, is the real sum. -/
theorem sum_coe {ι : Type*} (s : Finset ι) (f : ι → ℝ) : (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

theorem IsReal.sum {ι : Type*} (s : Finset ι) (f : ι → EReal) (h : ∀ k, IsReal (f k)) : IsReal (∑ k ∈ s, f k) := by
  choose g hg using h
  refine ⟨∑ k ∈ s, g k, ?_⟩
  rw [← sum_coe]
  exact Finset.sum_congr rfl fun k _ => hg k

/-- The larger of two real numbers, taken in the extended reals. -/
theorem coe_max (a b : ℝ) : max (a : EReal) (b : EReal) = ((max a b : ℝ) : EReal) :=
  (EReal.coe_strictMono.monotone.map_max).symm

theorem select_real {c : BitVec 1} {a b : EReal} (ha : IsReal a) (hb : IsReal b) : IsReal (Scalar.select c a b) := by
  unfold Scalar.select; split_ifs <;> assumption

/-! ## Float constants -/

/-- A single-precision pattern whose exponent field is not all ones denotes a real number. -/
theorem ieee_real (b : BitVec 32) (h : (b.extractLsb' 23 8).toNat ≠ 255) : IsReal (Ideal.ofBits .f32 b) := by
  show IsReal (Ideal.ieee 8 23 b)
  unfold Ideal.ieee
  simp only []
  rw [if_neg (by simpa using h)]
  split_ifs <;> exact ⟨_, rfl⟩

theorem ofBits_one : Ideal.ofBits .f32 0x3F800000#32 = 1 := by
  simp [Ideal.ofBits, Ideal.ieee]
  rw [← EReal.coe_mul, ← EReal.coe_one]; congr 1; norm_num
theorem ofBits_two : Ideal.ofBits .f32 0x40000000#32 = ((2 : ℝ) : EReal) := by
  simp [Ideal.ofBits, Ideal.ieee]
  rw [← EReal.coe_mul]; congr 1; norm_num
theorem ofBits_inf : Ideal.ofBits .f32 0x7F800000#32 = ⊤ := by simp [Ideal.ofBits, Ideal.ieee]

/-- For a nonzero denominator, multiplying by the reciprocal is dividing. -/
theorem mul_div_one (a D : EReal) (hD : D ≠ 0) : a * Ideal.div (Ideal.ofBits .f32 0x3F800000#32) D = Ideal.div a D := by
  unfold Ideal.div
  rw [if_neg hD, if_neg hD, ofBits_one, one_mul]

/-! ## The finiteness test read back -/

/-- An extended real whose absolute value is below plus infinity is a real number. -/
theorem real_of_abs_lt_top (x : EReal) (h : Ideal.cmp .olt (max x (-x)) (Ideal.ofBits .f32 0x7F800000#32) = 1#1) : IsReal x := by
  rw [ofBits_inf] at h
  induction x using EReal.rec with
  | bot => simp [Ideal.cmp] at h
  | top => simp [Ideal.cmp] at h
  | coe r => exact ⟨r, rfl⟩

/-- An array's test "|a| < +inf", true at an entry, makes that entry real. -/
theorem entry_real {s : Shape} (a : FVec Ideal s .f32) (hb : (⟨0, ![]⟩ : Shape).BroadcastsInDim s ![]) (i : s.Idx)
    (h : cmpf .olt (Host.absf (F := Ideal) a) (broadcastInDim s ![] hb (constant (F := Ideal) ⟨0, ![]⟩ .f32 0x7F800000#32)) i = 1#1) :
    IsReal (a i) := by
  refine real_of_abs_lt_top (a i) ?_
  have hc : broadcastInDim s ![] hb (constant (F := Ideal) ⟨0, ![]⟩ .f32 0x7F800000#32) i = Ideal.ofBits .f32 0x7F800000#32 :=
    broadcastInDim_apply ![] hb _ i ix0 fun ax => ax.elim0
  rw [← hc]
  exact h

/-! ## The host's activation functions on one number -/

/-- The scaled exponential linear unit as the host computes it on one number: the scale times (u where u > 0, else
    alpha (e^{u'} - 1) with u' = 0 where u > 0, else u). -/
def seluS (u : EReal) : EReal :=
  Ideal.ofBits .f32 0x3F867D5F#32 * Scalar.select (Ideal.cmp .ogt u (Ideal.ofBits .f32 0x00000000#32)) u
    (Ideal.ofBits .f32 0x3FD62D7D#32 * (Ideal.exp (Scalar.select (Ideal.cmp .ogt u (Ideal.ofBits .f32 0x00000000#32))
      (Ideal.ofBits .f32 0x00000000#32) u) - 1))

theorem seluS_real {u : EReal} (hu : IsReal u) : IsReal (seluS u) := by
  unfold seluS
  have h0 : IsReal (Ideal.ofBits .f32 0x00000000#32) := by rw [Ideal.ofBits_zero_f32]; exact IsReal.zero
  exact (ieee_real _ (by decide)).mul (select_real hu ((ieee_real _ (by decide)).mul (((select_real h0 hu).exp).sub IsReal.one)))

/-- Softplus as the host computes it on one number. -/
def softplusS (z : EReal) : EReal :=
  Scalar.select (Ideal.cmp .une (z - Ideal.ofBits .f32 0x00000000#32) (z - Ideal.ofBits .f32 0x00000000#32))
    (z + Ideal.ofBits .f32 0x00000000#32)
    (max z (Ideal.ofBits .f32 0x00000000#32)
      + Ideal.log1p (Ideal.exp (-(max (z - Ideal.ofBits .f32 0x00000000#32) (-(z - Ideal.ofBits .f32 0x00000000#32))))))

/-- The softplus of a real number is a positive real number: max(r, 0) ≥ 0 and log(1 + e^{-|r|}) > 0. -/
theorem softplusS_pos {z : EReal} (hz : IsReal z) : ∃ r : ℝ, 0 < r ∧ softplusS z = (r : EReal) := by
  obtain ⟨r, rfl⟩ := hz
  unfold softplusS
  have hne : Ideal.cmp .une ((r : EReal) - Ideal.ofBits .f32 0x00000000#32) ((r : EReal) - Ideal.ofBits .f32 0x00000000#32) = 0#1 := by
    simp [Ideal.cmp]
  rw [hne, Ideal.ofBits_zero_f32]
  have hsel : ∀ a b : EReal, Scalar.select 0#1 a b = b := fun a b => if_neg (by decide)
  rw [hsel, sub_zero]
  have hE : 0 < Real.exp (-(max r (-r))) := Real.exp_pos _
  refine ⟨max r 0 + Real.log (1 + Real.exp (-(max r (-r)))), ?_, ?_⟩
  · have : 0 < Real.log (1 + Real.exp (-(max r (-r)))) := Real.log_pos (by linarith)
    have : 0 ≤ max r 0 := le_max_right _ _
    linarith
  · have e1 : max (r : EReal) (-(r : EReal)) = ((max r (-r) : ℝ) : EReal) := by
      rw [← EReal.coe_neg, coe_max]
    have e2 : max (r : EReal) 0 = ((max r 0 : ℝ) : EReal) := by
      rw [← EReal.coe_zero, coe_max]
    rw [e1, e2, ← EReal.coe_neg, Ideal.exp_coe]
    unfold Ideal.log1p
    rw [← EReal.coe_one, ← EReal.coe_add, Ideal.log_coe, if_neg (not_le.mpr (by linarith)), ← EReal.coe_add]

end Cert.LibReal

end
-- ==== Proof.Spec.lean ====
/-
  What both programs compute, entry by entry, for real inputs.

  For query row `R` and key row `i` the score is the real number `Σ_k Q (R, k) * K (i, k)`. The result at `(R, c)` is the
  sum over the keys of the softmax weight of key `i` (normalised over all 4096 keys), scaled by the constant 2^-5 that
  both programs carry as the same single-precision word, times `V (i, c)`.
-/
import proofs.«153183_j7206955123485_2_alg».proof.Proof.Softmax
import proofs.«153183_j7206955123485_2_alg».proof.Proof.LibReal
import Idealize.ShloMosaic.Lib.ValueIdx
import Idealize.ShloMosaic.PureOps.Ideal

noncomputable section

open scoped BigOperators

namespace Cert.Attn

open Idealize.ShloMosaic Idealize.ShloMosaic.ValueIdx Cert.LibReal

/-- A whole argument array: 4096 rows of 1024 extended reals. -/
abbrev Arr : Type := (⟨2, ![4096, 1024]⟩ : Shape).Idx → EReal

/-- The score of query row `R` against key row `i`, as a real number. -/
def score (Q K : Arr) (R i : Fin 4096) : ℝ := ∑ k : Fin 1024, (Q (ix2 R k)).toReal * (K (ix2 i k)).toReal

/-- Column `c` of the value matrix, as real numbers. -/
def vcol (V : Arr) (c : Fin 1024) (i : Fin 4096) : ℝ := (V (ix2 i c)).toReal

/-- The scale both programs multiply by: the single-precision word 0x3D000000 (2^-5) as a real number. -/
def gam : ℝ := (Ideal.ofBits .f32 0x3D000000#32).toReal

/-- The scale's word denotes a real number. -/
theorem gam_eq : Ideal.ofBits .f32 0x3D000000#32 = ((gam : ℝ) : EReal) := by
  obtain ⟨r, hr⟩ := ieee_real 0x3D000000#32 (by decide)
  unfold gam; rw [hr, EReal.toReal_coe]

/-- A real entry is the coercion of its real part. -/
theorem coe_toReal_of_real {x : EReal} (h : IsReal x) : x = ((x.toReal : ℝ) : EReal) := by
  obtain ⟨r, rfl⟩ := h; rw [EReal.toReal_coe]

/-- The attention output at an index. -/
def G (Q K V : Arr) : Arr := fun i =>
  ((Softmax.wsum (score Q K (i 0)) (vcol V (i 1)) 0 gam : ℝ) : EReal)

end Cert.Attn

end
-- ==== Proof.Step.lean ====
/-
  One accumulation step of the kernel on the extended reals, for real data.

  Fix a query row `r` of the block. Suppose the scores of the row against the block's 512 keys are the real numbers
  `blk s n j` (block `n` of the row's 4096 scores) and the block of the value matrix holds the real numbers
  `blk (w c) n j`. If the carried arrays hold, for some real offset μ, the offset μ itself, the sum of weights
  `E s μ n` and the weighted sums `A s (w c) μ n` of the first `n` blocks, then after the step they hold the same for
  `n + 1` blocks at a new real offset (the larger of μ and the row's largest score in the block). At the first block the
  carried arrays are reset (offset minus infinity, sums zero): whatever the rescaling factor is, it multiplies zero.
  At the last block the output is the weighted sums times (1 / sum of weights) times 2^-5: the softmax-weighted sum.
-/
import proofs.«153183_j7206955123485_2_alg».proof.Proof.Payload
import proofs.«153183_j7206955123485_2_alg».proof.Proof.Spec

noncomputable section

open scoped BigOperators

namespace Cert.Attn.Step

open Cert.KernelIdeal Cert.KernelIdeal.Gen Idealize.ShloMosaic Idealize.ShloMosaic.ValueIdx
open Cert.LibReal Cert.Softmax Cert.Attn.Pay Cert.Attn

/-- A fold of `max` from minus infinity over real numbers is minus infinity (nothing folded) or a real number. -/
theorem fold_max_real {ι : Type} [DecidableEq ι] (f : ι → ℝ) (s : Finset ι) :
    s.fold max (⊥ : EReal) (fun j => ((f j : ℝ) : EReal)) = ⊥
      ∨ ∃ ρ : ℝ, s.fold max (⊥ : EReal) (fun j => ((f j : ℝ) : EReal)) = (ρ : EReal) := by
  induction s using Finset.induction_on with
  | empty => left; exact Finset.fold_empty
  | insert a s ha ih =>
    right
    rw [Finset.fold_insert ha]
    rcases ih with h | ⟨ρ, h⟩
    · rw [h]; exact ⟨f a, max_eq_left bot_le⟩
    · rw [h]; exact ⟨max (f a) ρ, coe_max _ _⟩

variable (x0 x1 : Vec Ideal S512x1024 .f32) (x2 : Vec Ideal S512x1024 .bf16)
  (xs0 xs1 : Vec Ideal S512x1 .f32) (xs2 : Vec Ideal S512x1024 .f32)

/-- The largest of 512 real scores is a real number. -/
theorem rowmax_real (g : Fin 512 → ℝ) (r : Fin 512) (hs : ∀ j, sc x0 x1 r j = ((g j : ℝ) : EReal)) :
    ∃ ρ : ℝ, rowmax x0 x1 r = (ρ : EReal) := by
  unfold rowmax
  rw [show (fun j => sc x0 x1 r j) = fun j => ((g j : ℝ) : EReal) from funext hs]
  rw [← Finset.insert_erase (Finset.mem_univ (0 : Fin 512)), Finset.fold_insert (Finset.notMem_erase _ _)]
  rcases fold_max_real g (Finset.univ.erase 0) with h | ⟨ρ, h⟩
  · rw [h]; exact ⟨g 0, max_eq_left bot_le⟩
  · rw [h]; exact ⟨max (g 0) ρ, coe_max _ _⟩

/-- The block's weights and weighted values, once the new offset is known to be the real number μ'. -/
theorem weights (s : Fin 4096 → ℝ) (n : ℕ) (r : Fin 512) (μ' : ℝ)
    (hs : ∀ j : Fin 512, sc x0 x1 r j = ((blk s n j : ℝ) : EReal))
    (h7 : k0_pay7 (F := Ideal) x0 x1 xs0 (ix2 r (0 : Fin 1)) = (μ' : EReal)) (j : Fin 512) :
    k0_pay9 (F := Ideal) x0 x1 xs0 (ix2 r j) = ((Real.exp (blk s n j - μ') : ℝ) : EReal) := by
  rw [pay9_apply, h7, hs, ← EReal.coe_sub, Ideal.exp_coe]

theorem sum_weights (s : Fin 4096 → ℝ) (n : ℕ) (r : Fin 512) (μ' : ℝ)
    (hs : ∀ j : Fin 512, sc x0 x1 r j = ((blk s n j : ℝ) : EReal))
    (h7 : k0_pay7 (F := Ideal) x0 x1 xs0 (ix2 r (0 : Fin 1)) = (μ' : EReal)) :
    ∑ j : Fin 512, k0_pay9 (F := Ideal) x0 x1 xs0 (ix2 r j) = ((∑ j : Fin 512, Real.exp (blk s n j - μ') : ℝ) : EReal) := by
  rw [← sum_coe]
  exact Finset.sum_congr rfl fun j _ => weights x0 x1 xs0 s n r μ' hs h7 j

theorem sum_weighted (s v : Fin 4096 → ℝ) (n : ℕ) (r : Fin 512) (cc : Fin 1024) (μ' : ℝ)
    (hs : ∀ j : Fin 512, sc x0 x1 r j = ((blk s n j : ℝ) : EReal))
    (hv : ∀ j : Fin 512, x2 (ix2 j cc) = ((blk v n j : ℝ) : EReal))
    (h7 : k0_pay7 (F := Ideal) x0 x1 xs0 (ix2 r (0 : Fin 1)) = (μ' : EReal)) :
    ∑ j : Fin 512, k0_pay9 (F := Ideal) x0 x1 xs0 (ix2 r j) * x2 (ix2 j cc)
      = ((∑ j : Fin 512, Real.exp (blk s n j - μ') * blk v n j : ℝ) : EReal) := by
  rw [← sum_coe]
  refine Finset.sum_congr rfl fun j _ => ?_
  rw [weights x0 x1 xs0 s n r μ' hs h7 j, hv j, ← EReal.coe_mul]

/-- A step from what the previous point left, at the real offset μ. -/
theorem step_next (s : Fin 4096 → ℝ) (w : Fin 1024 → Fin 4096 → ℝ) (n : ℕ) (r : Fin 512)
    (hs : ∀ j : Fin 512, sc x0 x1 r j = ((blk s n j : ℝ) : EReal))
    (hw : ∀ (cc : Fin 1024) (j : Fin 512), x2 (ix2 j cc) = ((blk (w cc) n j : ℝ) : EReal))
    (μ : ℝ) (h0 : xs0 (ix2 r (0 : Fin 1)) = (μ : EReal))
    (h1 : xs1 (ix2 r (0 : Fin 1)) = ((E s μ n : ℝ) : EReal))
    (h2 : ∀ cc : Fin 1024, xs2 (ix2 r cc) = ((A s (w cc) μ n : ℝ) : EReal)) :
    ∃ μ' : ℝ, k0_pay7 (F := Ideal) x0 x1 xs0 (ix2 r (0 : Fin 1)) = (μ' : EReal)
      ∧ k0_pay10 (F := Ideal) x0 x1 xs0 xs1 (ix2 r (0 : Fin 1)) = ((E s μ' (n + 1) : ℝ) : EReal)
      ∧ ∀ cc : Fin 1024, k0_pay11 (F := Ideal) x0 x1 xs0 x2 xs2 (ix2 r cc) = ((A s (w cc) μ' (n + 1) : ℝ) : EReal) := by
  obtain ⟨ρ, hρ⟩ := rowmax_real x0 x1 (blk s n) r hs
  have h7 : k0_pay7 (F := Ideal) x0 x1 xs0 (ix2 r (0 : Fin 1)) = ((max μ ρ : ℝ) : EReal) := by
    rw [pay7_apply, h0, hρ, coe_max]
  have h8 : k0_pay8 (F := Ideal) x0 x1 xs0 (ix2 r (0 : Fin 1)) = ((Real.exp (μ - max μ ρ) : ℝ) : EReal) := by
    rw [pay8_apply, h7, h0, ← EReal.coe_sub, Ideal.exp_coe]
  refine ⟨max μ ρ, h7, ?_, fun cc => ?_⟩
  · rw [pay10_apply, h8, h1, sum_weights x0 x1 xs0 s n r _ hs h7, ← EReal.coe_mul, ← EReal.coe_add, E_step]
  · rw [pay11_apply, h8, h2 cc, sum_weighted x0 x1 x2 xs0 s (w cc) n r cc _ hs (hw cc) h7, ← EReal.coe_mul,
      ← EReal.coe_add, A_step]

/-- The step at the first block of keys, from the reset arrays. -/
theorem step_first (s : Fin 4096 → ℝ) (w : Fin 1024 → Fin 4096 → ℝ) (r : Fin 512)
    (hs : ∀ j : Fin 512, sc x0 x1 r j = ((blk s 0 j : ℝ) : EReal))
    (hw : ∀ (cc : Fin 1024) (j : Fin 512), x2 (ix2 j cc) = ((blk (w cc) 0 j : ℝ) : EReal)) :
    ∃ μ' : ℝ, k0_pay7 (F := Ideal) x0 x1 (k0_pay3 (F := Ideal)) (ix2 r (0 : Fin 1)) = (μ' : EReal)
      ∧ k0_pay10 (F := Ideal) x0 x1 (k0_pay3 (F := Ideal)) (k0_pay4 (F := Ideal)) (ix2 r (0 : Fin 1)) = ((E s μ' (0 + 1) : ℝ) : EReal)
      ∧ ∀ cc : Fin 1024, k0_pay11 (F := Ideal) x0 x1 (k0_pay3 (F := Ideal)) x2 (k0_pay5 (F := Ideal)) (ix2 r cc)
          = ((A s (w cc) μ' (0 + 1) : ℝ) : EReal) := by
  obtain ⟨ρ, hρ⟩ := rowmax_real x0 x1 (blk s 0) r hs
  have h7 : k0_pay7 (F := Ideal) x0 x1 (k0_pay3 (F := Ideal)) (ix2 r (0 : Fin 1)) = ((ρ : ℝ) : EReal) := by
    rw [pay7_apply, pay3_apply, hρ]; exact max_eq_right bot_le
  refine ⟨ρ, h7, ?_, fun cc => ?_⟩
  · rw [pay10_apply, pay4_apply, mul_zero, zero_add, sum_weights x0 x1 _ s 0 r _ hs h7, E_succ, E_zero, zero_add]
  · rw [pay11_apply, pay5_apply, mul_zero, zero_add, sum_weighted x0 x1 x2 _ s (w cc) 0 r cc _ hs (hw cc) h7, A_succ,
      A_zero, zero_add]

/-- The output of a row block at the last block of keys. -/
theorem final (l : Vec Ideal S512x1 .f32) (acc : Vec Ideal S512x1024 .f32) (s v : Fin 4096 → ℝ) (μ : ℝ)
    (r : Fin 512) (cc : Fin 1024) (hl : l (ix2 r (0 : Fin 1)) = ((E s μ 8 : ℝ) : EReal))
    (ha : acc (ix2 r cc) = ((A s v μ 8 : ℝ) : EReal)) :
    k0_pay2 (F := Ideal) l acc (ix2 r cc) = ((wsum s v 0 gam : ℝ) : EReal) := by
  rw [pay2_apply, hl, ha, ofBits_one, gam_eq, Ideal.div_coe (ne_of_gt (E_pos s μ)), one_mul, ← EReal.coe_mul,
    ← EReal.coe_mul, result_eq_wsum s v μ 0 gam]

end Cert.Attn.Step

end
-- ==== Proof.Blocks.lean ====
/-
  The blocks the kernel body loads at a grid point, read off the argument arrays.

  The 64 grid points are numbered `t = 8 * (row block) + (key block)`. At point `t` the query block holds rows
  `(t / 8) * 512 + r` of the first argument, the key block rows `(t % 8) * 512 + j` of the second, and the value block the
  same rows of the third argument (narrowed by the host before the call, which on the extended reals changes nothing).
  For real arguments the block's scores and values are therefore block `t % 8` of the row's 4096 real scores and of the
  real value column.
-/
import proofs.«153183_j7206955123485_2_alg».proof.Proof.Gen.KernelIdeal.Frame
import proofs.«153183_j7206955123485_2_alg».proof.Proof.Payload
import proofs.«153183_j7206955123485_2_alg».proof.Proof.Spec
import Idealize.ShloMosaic.Lib.Pipeline.Value
import Idealize.ShloMosaic.Lib.StableHlo.Run
import Idealize.ShloMosaic.Lib.Tactic

noncomputable section

open scoped BigOperators

namespace Cert.Attn.Blocks

open Cert.KernelIdeal Cert.KernelIdeal.Gen
open Idealize.ShloMosaic Idealize.ShloMosaic.TcCoe Idealize.SL.Sem Idealize.ShloMosaic.ValueIdx
open Cert.LibReal Cert.Softmax Cert.Attn

variable (m : (ℓ : Loc nD τ sig) → Buf (Elt Ideal) ℓ)

/-- The printed index maps over the grid: the query and output blocks move with `t / 8`, the key and value blocks with
    `t % 8`; no window moves along the second axis. -/
theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val % 8 ∧ win0_2.index t (1 : Fin 2) = 0
    ∧ win0_3.index t (0 : Fin 2) = t.val / 8 ∧ win0_3.index t (1 : Fin 2) = 0 :=
  (by decide +kernel : ∀ t : Fin grid0.N, _)

theorem t_lt (t : Fin cfg0.N) : t.val < 64 := lt_of_lt_of_eq t.isLt (show cfg0.N = 64 from N_0)

/-- The global query row of row `r` of the block at point `t`. -/
def qrow (t : Fin cfg0.N) (r : Fin 512) : Fin 4096 :=
  ⟨t.val / 8 * 512 + r.val, by have := t_lt t; have := r.isLt; omega⟩

/-- The global key row of row `j` of the block at point `t`. -/
def krow (t : Fin cfg0.N) (j : Fin 512) : Fin 4096 :=
  ⟨t.val % 8 * 512 + j.val, by have := j.isLt; omega⟩

/-- The query block at point `t`. -/
theorem iblk0_apply (c : Dev nD) (t : Fin cfg0.N) (r : Fin 512) (k : Fin 1024) :
    (iblk m c 0 t : Vec Ideal S512x1024 .f32) (ix2 r k) = m ((c : Thread nD τ).loc main_arg0) (ix2 (qrow t r) k) := by
  unfold iblk
  show V m c main_arg0 (((cfg0.win 0).blk t).view.emb (ix2 r k)) = _
  rw [V_main_arg0]
  obtain ⟨e0, e1, -⟩ := idx_facts t
  refine congrArg _ (funext fun a => Fin.ext ?_)
  match a with
  | ⟨0, _⟩ => show win0_0.index t (0 : Fin 2) * 512 + 1 * r.val = t.val / 8 * 512 + r.val; rw [e0]; omega
  | ⟨1, _⟩ => show win0_0.index t (1 : Fin 2) * 1024 + 1 * k.val = k.val; rw [e1]; omega

/-- The key block at point `t`. -/
theorem iblk1_apply (c : Dev nD) (t : Fin cfg0.N) (j : Fin 512) (k : Fin 1024) :
    (iblk m c 1 t : Vec Ideal S512x1024 .f32) (ix2 j k) = m ((c : Thread nD τ).loc main_arg1) (ix2 (krow t j) k) := by
  unfold iblk
  show V m c main_arg1 (((cfg0.win 1).blk t).view.emb (ix2 j k)) = _
  rw [V_main_arg1]
  obtain ⟨-, -, e0, e1, -⟩ := idx_facts t
  refine congrArg _ (funext fun a => Fin.ext ?_)
  match a with
  | ⟨0, _⟩ => show win0_1.index t (0 : Fin 2) * 512 + 1 * j.val = t.val % 8 * 512 + j.val; rw [e0]; omega
  | ⟨1, _⟩ => show win0_1.index t (1 : Fin 2) * 1024 + 1 * k.val = k.val; rw [e1]; omega

/-- The array the value window stages is the third argument, entry by entry: narrowing a float changes nothing on
    the extended reals. -/
theorem V_v0_apply (c : Dev nD) (i : S4096x1024.Idx) :
    (V m c main_v0 : S4096x1024.Idx → EReal) i = m ((c : Thread nD τ).loc main_arg2) i := by
  have e : V m c main_v0
      = (truncf (F := Ideal) (s := S4096x1024) (φ := .f32) .bf16 (m ((c : Thread nD τ).loc main_arg2)) bitsLt_bf16_f32
          : FVec Ideal S4096x1024 .bf16) := by
    dsimp only [V, hostOps0]; after_results
  rw [e]; rfl

/-- The value block at point `t`. -/
theorem iblk2_apply (c : Dev nD) (t : Fin cfg0.N) (j : Fin 512) (cc : Fin 1024) :
    (iblk m c 2 t : Vec Ideal S512x1024 .bf16) (ix2 j cc) = m ((c : Thread nD τ).loc main_arg2) (ix2 (krow t j) cc) := by
  unfold iblk
  show (V m c main_v0 : S4096x1024.Idx → EReal) (((cfg0.win 2).blk t).view.emb (ix2 j cc)) = _
  rw [V_v0_apply]
  obtain ⟨-, -, -, -, e0, e1, -⟩ := idx_facts t
  refine congrArg _ (funext fun a => Fin.ext ?_)
  match a with
  | ⟨0, _⟩ => show win0_2.index t (0 : Fin 2) * 512 + 1 * j.val = t.val % 8 * 512 + j.val; rw [e0]; omega
  | ⟨1, _⟩ => show win0_2.index t (1 : Fin 2) * 1024 + 1 * cc.val = cc.val; rw [e1]; omega

/-- For real arguments, the block's scores are block `t % 8` of the row's real scores. -/
theorem sc_block (c : Dev nD) (hQ : ∀ i, IsReal (m ((c : Thread nD τ).loc main_arg0) i))
    (hK : ∀ i, IsReal (m ((c : Thread nD τ).loc main_arg1) i)) (t : Fin cfg0.N) (r j : Fin 512) :
    Pay.sc (iblk m c 0 t) (iblk m c 1 t) r j
      = ((blk (score (m ((c : Thread nD τ).loc main_arg0)) (m ((c : Thread nD τ).loc main_arg1)) (qrow t r)) (t.val % 8) j : ℝ) : EReal) := by
  rw [blk_of_lt _ (Nat.mod_lt _ (by norm_num))]
  unfold Pay.sc score
  rw [← sum_coe]
  refine Finset.sum_congr rfl fun k _ => ?_
  rw [iblk0_apply, iblk1_apply, EReal.coe_mul, ← coe_toReal_of_real (hQ _), ← coe_toReal_of_real (hK _)]
  rfl

/-- For real arguments, the value block is block `t % 8` of the real value column. -/
theorem v_block (c : Dev nD) (hV : ∀ i, IsReal (m ((c : Thread nD τ).loc main_arg2) i)) (t : Fin cfg0.N)
    (cc : Fin 1024) (j : Fin 512) :
    (iblk m c 2 t : Vec Ideal S512x1024 .bf16) (ix2 j cc)
      = ((blk (vcol (m ((c : Thread nD τ).loc main_arg2)) cc) (t.val % 8) j : ℝ) : EReal) := by
  rw [blk_of_lt _ (Nat.mod_lt _ (by norm_num)), iblk2_apply]
  unfold vcol
  exact coe_toReal_of_real (hV _)

end Cert.Attn.Blocks

end
-- ==== Proof.Invariant.lean ====
/-
  What the carried arrays hold after each grid point, for real arguments — by induction along the grid.

  After point `t = 8 * (row block) + (key block)`, for each row `r` of the block there is a real offset μ such that the
  carried offset is μ, the carried sum of weights is `E s μ (t % 8 + 1)` and the carried weighted sums are
  `A s (column c of V) μ (t % 8 + 1)`, where `s` are the 4096 real scores of global row `(t / 8) * 512 + r`. At the first
  key block the arrays are reset before use, so nothing is assumed of the point before; at the other key blocks the step
  law takes the statement at `t - 1` (same row block, one key block fewer) to the statement at `t`. At the last key block
  the output block holds the attention output of its rows.
-/
import proofs.«153183_j7206955123485_2_alg».proof.Proof.Pieces
import proofs.«153183_j7206955123485_2_alg».proof.Proof.Step
import proofs.«153183_j7206955123485_2_alg».proof.Proof.Blocks

noncomputable section

open scoped BigOperators

namespace Cert.Attn.Inv

open Cert.KernelIdeal Cert.KernelIdeal.Gen
open Idealize.ShloMosaic Idealize.ShloMosaic.TcCoe Idealize.SL.Sem Idealize.ShloMosaic.ValueIdx
open Cert.LibReal Cert.Softmax Cert.Attn Cert.Attn.Blocks

variable (m : (ℓ : Loc nD τ sig) → Buf (Elt Ideal) ℓ) (c : Dev nD)

/-! What a point leaves in each carried array (and, at the last key block, in the output block): the case's found
    pieces are the body's named terms of the point's blocks and, past the first key block, of what the point before left. -/

set_option maxHeartbeats 1000000 in
theorem outs_A0 (t : Fin cfg0.N) (h0 : t.val % 8 = 0) (h1 : ¬t.val % 8 = 7) :
    (outsAt0 m c t.val t.isLt).2.1 = k0_pay1 (k0_pay7 (iblk m c 0 t) (iblk m c 1 t) (k0_pay3 (F := Ideal))) :=
  (congrArg (fun p => p.2.1) (outsAt0_A m c t h0 h1)).trans
    (Pieces.sA0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t))

set_option maxHeartbeats 1000000 in
theorem outs_A1 (t : Fin cfg0.N) (h0 : t.val % 8 = 0) (h1 : ¬t.val % 8 = 7) :
    (outsAt0 m c t.val t.isLt).2.2.1 = k0_pay10 (iblk m c 0 t) (iblk m c 1 t) (k0_pay3 (F := Ideal)) (k0_pay4 (F := Ideal)) :=
  (congrArg (fun p => p.2.2.1) (outsAt0_A m c t h0 h1)).trans
    (Pieces.sA1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t))

set_option maxHeartbeats 1000000 in
theorem outs_A2 (t : Fin cfg0.N) (h0 : t.val % 8 = 0) (h1 : ¬t.val % 8 = 7) :
    (outsAt0 m c t.val t.isLt).2.2.2 = k0_pay11 (iblk m c 0 t) (iblk m c 1 t) (k0_pay3 (F := Ideal)) (iblk m c 2 t) (k0_pay5 (F := Ideal)) :=
  (congrArg (fun p => p.2.2.2) (outsAt0_A m c t h0 h1)).trans
    (Pieces.sA2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t))

set_option maxHeartbeats 1000000 in
theorem outs_B0 (t : Fin cfg0.N) (h0 : ¬t.val % 8 = 0) (h1 : ¬t.val % 8 = 7) :
    (outsAt0 m c t.val t.isLt).2.1 = k0_pay1 (k0_pay7 (iblk m c 0 t) (iblk m c 1 t) (outsAt0 m c (t.val - 1) (Nat.lt_of_le_of_lt (Nat.sub_le _ _) t.isLt)).2.1) :=
  (congrArg (fun p => p.2.1) (outsAt0_B m c t h0 h1)).trans
    (Pieces.sB0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2)

set_option maxHeartbeats 1000000 in
theorem outs_B1 (t : Fin cfg0.N) (h0 : ¬t.val % 8 = 0) (h1 : ¬t.val % 8 = 7) :
    (outsAt0 m c t.val t.isLt).2.2.1 = k0_pay10 (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 :=
  (congrArg (fun p => p.2.2.1) (outsAt0_B m c t h0 h1)).trans
    (Pieces.sB1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2)

set_option maxHeartbeats 1000000 in
theorem outs_B2 (t : Fin cfg0.N) (h0 : ¬t.val % 8 = 0) (h1 : ¬t.val % 8 = 7) :
    (outsAt0 m c t.val t.isLt).2.2.2 = k0_pay11 (iblk m c 0 t) (iblk m c 1 t) (outsAt0 m c (t.val - 1) (Nat.lt_of_le_of_lt (Nat.sub_le _ _) t.isLt)).2.1 (iblk m c 2 t) (outsAt0 m c (t.val - 1) (Nat.lt_of_le_of_lt (Nat.sub_le _ _) t.isLt)).2.2.2 :=
  (congrArg (fun p => p.2.2.2) (outsAt0_B m c t h0 h1)).trans
    (Pieces.sB2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2)

set_option maxHeartbeats 1000000 in
theorem outs_C0 (t : Fin cfg0.N) (h0 : ¬t.val % 8 = 0) (h1 : t.val % 8 = 7) :
    (outsAt0 m c t.val t.isLt).2.1 = k0_pay1 (k0_pay7 (iblk m c 0 t) (iblk m c 1 t) (outsAt0 m c (t.val - 1) (Nat.lt_of_le_of_lt (Nat.sub_le _ _) t.isLt)).2.1) :=
  (congrArg (fun p => p.2.1) (outsAt0_C m c t h0 h1)).trans
    (Pieces.sC0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2)

set_option maxHeartbeats 1000000 in
theorem outs_C1 (t : Fin cfg0.N) (h0 : ¬t.val % 8 = 0) (h1 : t.val % 8 = 7) :
    (outsAt0 m c t.val t.isLt).2.2.1 = k0_pay10 (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 :=
  (congrArg (fun p => p.2.2.1) (outsAt0_C m c t h0 h1)).trans
    (Pieces.sC1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2)

set_option maxHeartbeats 1000000 in
theorem outs_C2 (t : Fin cfg0.N) (h0 : ¬t.val % 8 = 0) (h1 : t.val % 8 = 7) :
    (outsAt0 m c t.val t.isLt).2.2.2 = k0_pay11 (iblk m c 0 t) (iblk m c 1 t) (outsAt0 m c (t.val - 1) (Nat.lt_of_le_of_lt (Nat.sub_le _ _) t.isLt)).2.1 (iblk m c 2 t) (outsAt0 m c (t.val - 1) (Nat.lt_of_le_of_lt (Nat.sub_le _ _) t.isLt)).2.2.2 :=
  (congrArg (fun p => p.2.2.2) (outsAt0_C m c t h0 h1)).trans
    (Pieces.sC2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2)

set_option maxHeartbeats 1000000 in
theorem outs_C3 (t : Fin cfg0.N) (h0 : ¬t.val % 8 = 0) (h1 : t.val % 8 = 7) :
    (outsAt0 m c t.val t.isLt).1 = k0_pay2 (k0_pay10 (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1) (k0_pay11 (iblk m c 0 t) (iblk m c 1 t) (outsAt0 m c (t.val - 1) (Nat.lt_of_le_of_lt (Nat.sub_le _ _) t.isLt)).2.1 (iblk m c 2 t) (outsAt0 m c (t.val - 1) (Nat.lt_of_le_of_lt (Nat.sub_le _ _) t.isLt)).2.2.2) :=
  (congrArg (fun p => p.1) (outsAt0_C m c t h0 h1)).trans
    (Pieces.oC3 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2)

/-- The statement carried along the grid. -/
def Holds (n : ℕ) (hn : n < cfg0.N) : Prop :=
  ∀ r : Fin 512, ∃ μ : ℝ,
    (outsAt0 m c n hn).2.1 (ix2 r (0 : Fin 1)) = (μ : EReal)
    ∧ (outsAt0 m c n hn).2.2.1 (ix2 r (0 : Fin 1))
        = ((E (score (m ((c : Thread nD τ).loc main_arg0)) (m ((c : Thread nD τ).loc main_arg1)) (qrow ⟨n, hn⟩ r)) μ (n % 8 + 1) : ℝ) : EReal)
    ∧ ∀ cc : Fin 1024, (outsAt0 m c n hn).2.2.2 (ix2 r cc)
        = ((A (score (m ((c : Thread nD τ).loc main_arg0)) (m ((c : Thread nD τ).loc main_arg1)) (qrow ⟨n, hn⟩ r)) (vcol (m ((c : Thread nD τ).loc main_arg2)) cc) μ (n % 8 + 1) : ℝ) : EReal)

variable (hQ : ∀ i, IsReal ((m ((c : Thread nD τ).loc main_arg0)) i)) (hK : ∀ i, IsReal ((m ((c : Thread nD τ).loc main_arg1)) i)) (hV : ∀ i, IsReal ((m ((c : Thread nD τ).loc main_arg2)) i))

include hQ hK hV in
theorem holds_first (t : Fin cfg0.N) (h0 : t.val % 8 = 0) : Holds m c t.val t.isLt := by
  have h1 : ¬t.val % 8 = 7 := by omega
  intro r
  obtain ⟨μ', e7, e10, e11⟩ := Step.step_first (iblk m c 0 t) (iblk m c 1 t) (iblk m c 2 t)
    (score (m ((c : Thread nD τ).loc main_arg0)) (m ((c : Thread nD τ).loc main_arg1)) (qrow t r)) (fun cc => vcol (m ((c : Thread nD τ).loc main_arg2)) cc) r
    (fun j => by have h := sc_block m c hQ hK t r j; rwa [h0] at h)
    (fun cc j => by have h := v_block m c hV t cc j; rwa [h0] at h)
  have o0 := outs_A0 m c t h0 h1
  have o1 := outs_A1 m c t h0 h1
  have o2 := outs_A2 m c t h0 h1
  have en : t.val % 8 + 1 = 0 + 1 := by rw [h0]
  refine ⟨μ', ?_, ?_, fun cc => ?_⟩
  · rw [o0, Pay.pay1_eq]; exact e7
  · rw [o1, en]; exact e10
  · rw [o2, en]; exact e11 cc

include hQ hK hV in
theorem holds_next (t : Fin cfg0.N) (h0 : ¬t.val % 8 = 0)
    (ih : Holds m c (t.val - 1) (Nat.lt_of_le_of_lt (Nat.sub_le _ _) t.isLt)) : Holds m c t.val t.isLt := by
  intro r
  obtain ⟨μ, p0, p1, p2⟩ := ih r
  have eq : qrow ⟨t.val - 1, Nat.lt_of_le_of_lt (Nat.sub_le _ _) t.isLt⟩ r = qrow t r :=
    Fin.ext (by show (t.val - 1) / 8 * 512 + r.val = t.val / 8 * 512 + r.val; omega)
  have en : (t.val - 1) % 8 + 1 = t.val % 8 := by omega
  rw [eq, en] at p1 p2
  obtain ⟨μ', e7, e10, e11⟩ := Step.step_next (iblk m c 0 t) (iblk m c 1 t) (iblk m c 2 t)
    (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2
    (score (m ((c : Thread nD τ).loc main_arg0)) (m ((c : Thread nD τ).loc main_arg1)) (qrow t r)) (fun cc => vcol (m ((c : Thread nD τ).loc main_arg2)) cc) (t.val % 8) r
    (fun j => sc_block m c hQ hK t r j) (fun cc j => v_block m c hV t cc j) μ p0 p1 p2
  by_cases h1 : t.val % 8 = 7
  · have o0 := outs_C0 m c t h0 h1
    have o1 := outs_C1 m c t h0 h1
    have o2 := outs_C2 m c t h0 h1
    refine ⟨μ', ?_, ?_, fun cc => ?_⟩
    · rw [o0, Pay.pay1_eq]; exact e7
    · rw [o1]; exact e10
    · rw [o2]; exact e11 cc
  · have o0 := outs_B0 m c t h0 h1
    have o1 := outs_B1 m c t h0 h1
    have o2 := outs_B2 m c t h0 h1
    refine ⟨μ', ?_, ?_, fun cc => ?_⟩
    · rw [o0, Pay.pay1_eq]; exact e7
    · rw [o1]; exact e10
    · rw [o2]; exact e11 cc

include hQ hK hV in
/-- The statement holds after every grid point. -/
theorem holds_all : ∀ (n : ℕ) (hn : n < cfg0.N), Holds m c n hn := by
  intro n
  induction n with
  | zero => intro hn; exact holds_first m c hQ hK hV ⟨0, hn⟩ (Nat.zero_mod _)
  | succ n ih =>
    intro hn
    by_cases h0 : (n + 1) % 8 = 0
    · exact holds_first m c hQ hK hV ⟨n + 1, hn⟩ h0
    · exact holds_next m c hQ hK hV ⟨n + 1, hn⟩ h0 (ih (Nat.lt_of_succ_lt hn))

include hQ hK hV in
/-- At the last key block the output block holds the attention output of its rows. -/
theorem out_last (t : Fin cfg0.N) (h1 : t.val % 8 = 7) (r : Fin 512) (cc : Fin 1024) :
    (outsAt0 m c t.val t.isLt).1 (ix2 r cc) = G (m ((c : Thread nD τ).loc main_arg0)) (m ((c : Thread nD τ).loc main_arg1)) (m ((c : Thread nD τ).loc main_arg2)) (ix2 (qrow t r) cc) := by
  have h0 : ¬t.val % 8 = 0 := by omega
  obtain ⟨μ, -, q1, q2⟩ := holds_all m c hQ hK hV t.val t.isLt r
  have o1 := outs_C1 m c t h0 h1
  have o2 := outs_C2 m c t h0 h1
  have o3 := outs_C3 m c t h0 h1
  have en : t.val % 8 + 1 = 8 := by omega
  rw [o1, en] at q1
  have q2' := q2 cc
  rw [o2, en] at q2'
  rw [o3]
  exact Step.final _ _ _ _ μ r cc q1 q2'

end Cert.Attn.Inv

end
-- ==== Proof.FinalArr.lean ====
/-
  From what the output block holds at the last key block to the whole output array after the kernel's run.

  The 64 grid points are numbered `t = 8 * (row block) + (key block)`. The output window is written back only at the last
  key block of a row block (`t % 8 = 7`), and then its block is rows `(t / 8) * 512 ..` of the output array, which hold the
  attention output of those rows. The eight written blocks cover all 4096 rows, so after the run the output array is
  the attention output, and the run leaves the three arguments as they were.
-/
import proofs.«153183_j7206955123485_2_alg».proof.Proof.Invariant
import proofs.«153183_j7206955123485_2_alg».proof.Proof.Gen.KernelIdeal.Value
import Idealize.ShloMosaic.Lib.Pipeline.Value

noncomputable section

open scoped BigOperators

namespace Cert.Attn.Final

open Cert.KernelIdeal Cert.KernelIdeal.Gen
open Idealize.ShloMosaic Idealize.ShloMosaic.TcCoe Idealize.SL.Sem Idealize.ShloMosaic.ValueIdx
open Cert.LibReal Cert.Softmax Cert.Attn
open Cert.Attn.Blocks

/-- The output window is written back exactly at the last key block of each row block. -/
theorem flush_iff : ∀ t : Fin cfg0.N, (cfg0.win 3).flush t = true ↔ t.val % 8 = 7 :=
  (by decide +kernel : ∀ t : Fin grid0.N, win0_3.flush t = true ↔ t.val % 8 = 7)

/-- The output window's block index over the grid: it moves with the row block and not along the columns. -/
theorem idx3 (t : Fin cfg0.N) : win0_3.index t (0 : Fin 2) = t.val / 8 ∧ win0_3.index t (1 : Fin 2) = 0 := by
  obtain ⟨-, -, -, -, -, -, e0, e1⟩ := idx_facts t
  exact ⟨e0, e1⟩

/-- An index of the output array is in point `t`'s block iff each coordinate is in the block's range on its axis. -/
theorem mem_blk3 (t : Fin cfg0.N) (i : S4096x1024.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v1).slice (win0_3.rect t)).set ↔ _
  rw [View.set_slice_whole, Rect.mem_set_unit]
  exact Iff.rfl

/-- Every index of the output array is in the block of a point at which the window is written back: the last key
    block of the index's row block. -/
theorem cover3 (i : S4096x1024.Idx) :
    ∃ t : Fin cfg0.N, (cfg0.win 3).flush t = true ∧ i ∈ ((cfg0.win 3).blk t).view.set := by
  have hi0 : (i 0).val < 4096 := (i 0).isLt
  have hi1 : (i 1).val < 1024 := (i 1).isLt
  have hlt : (i 0).val / 512 * 8 + 7 < cfg0.N := by rw [show cfg0.N = 64 from N_0]; omega
  obtain ⟨t, ht⟩ : ∃ t : Fin cfg0.N, t.val = (i 0).val / 512 * 8 + 7 := ⟨⟨_, hlt⟩, rfl⟩
  obtain ⟨e0, e1⟩ := idx3 t
  refine ⟨t, (flush_iff t).mpr (by omega), ?_⟩
  rw [mem_blk3]
  intro a
  match a with
  | ⟨0, _⟩ =>
    show win0_3.index t (0 : Fin 2) * 512 ≤ (i 0).val ∧ (i 0).val < win0_3.index t (0 : Fin 2) * 512 + 512
    rw [e0]; omega
  | ⟨1, _⟩ =>
    show win0_3.index t (1 : Fin 2) * 1024 ≤ (i 1).val ∧ (i 1).val < win0_3.index t (1 : Fin 2) * 1024 + 1024
    rw [e1]; omega

variable (m : (ℓ : Loc nD τ sig) → Buf (Elt Ideal) ℓ) (c : Dev nD)
variable (hQ : ∀ i, IsReal ((m ((c : Thread nD τ).loc main_arg0)) i)) (hK : ∀ i, IsReal ((m ((c : Thread nD τ).loc main_arg1)) i)) (hV : ∀ i, IsReal ((m ((c : Thread nD τ).loc main_arg2)) i))

include hQ hK hV in
/-- What a point at the last key block writes back is its block of the attention output. -/
theorem flushed3_eq (t : Fin cfg0.N) (hf : (cfg0.win 3).flush t = true) :
    (dats m 0 c).flushed 3 t = ((cfg0.win 3).blk t).view.read (Elt Ideal)
      (G (m ((c : Thread nD τ).loc main_arg0)) (m ((c : Thread nD τ).loc main_arg1)) (m ((c : Thread nD τ).loc main_arg2))) := by
  have h1 : t.val % 8 = 7 := (flush_iff t).mp hf
  rw [Cert.KernelIdeal.Value.flushed3]
  funext y
  obtain ⟨r, cc, rfl⟩ : ∃ (r : Fin 512) (cc : Fin 1024), y = ix2 r cc := ⟨y 0, y 1, eq_ix2 y⟩
  show (outsAt0 m c t.val t.isLt).1 (ix2 r cc)
    = G (m ((c : Thread nD τ).loc main_arg0)) (m ((c : Thread nD τ).loc main_arg1)) (m ((c : Thread nD τ).loc main_arg2))
        (((cfg0.win 3).blk t).view.emb (ix2 r cc))
  rw [Inv.out_last m c hQ hK hV t h1 r cc]
  obtain ⟨e0, e1⟩ := idx3 t
  refine congrArg _ (funext fun a => Fin.ext ?_)
  match a with
  | ⟨0, _⟩ => show t.val / 8 * 512 + r.val = win0_3.index t (0 : Fin 2) * 512 + 1 * r.val; rw [e0]; omega
  | ⟨1, _⟩ => show cc.val = win0_3.index t (1 : Fin 2) * 1024 + 1 * cc.val; rw [e1]; omega

include hQ hK hV in
/-- After the run the output array is the attention output. -/
theorem final3 : (dats m 0 c).arrAt 3 cfg0.N
    = G (m ((c : Thread nD τ).loc main_arg0)) (m ((c : Thread nD τ).loc main_arg1)) (m ((c : Thread nD τ).loc main_arg2)) :=
  (dats m 0 c).arrAt_eq_of_cover 3 _ (fun t hf => flushed3_eq m c hQ hK hV t hf) cover3

omit c hQ hK hV in
/-- The kernel's run on real arguments: the output array ends as the attention output, the arguments unchanged. -/
theorem run (ρ : Dev nD → PrngReg)
    (hreal : ∀ c : Dev nD, (∀ i, IsReal (m ((c : Thread nD τ).loc main_arg0) i)) ∧ (∀ i, IsReal (m ((c : Thread nD τ).loc main_arg1) i)) ∧ (∀ i, IsReal (m ((c : Thread nD τ).loc main_arg2) i))) :
    θ_run defs (onTc (τ := τ) (main (F := Ideal))) ⟨m, fun _ => 0, ρ⟩ fun r => ∀ c : Dev nD,
      r.2.mem ((c : Thread nD τ).loc main_v1) = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c (hreal c).1 (hreal c).2.1 (hreal c).2.2), (h c).2⟩)
    (Cert.KernelIdeal.Value.run_blocks m ρ)

end Cert.Attn.Final

end
-- ==== Proof.RefEntry.lean ====
/-
  The reference program's result at an index, for real inputs: the softmax of the scores of row `R` (relative to the
  row's largest score `M`, a real number), scaled, against column `c` of the value matrix.
-/
import proofs.«153183_j7206955123485_2_alg».proof.Proof.Gen.ReferenceIdeal.Read
import proofs.«153183_j7206955123485_2_alg».proof.Proof.Spec
import proofs.«153183_j7206955123485_2_alg».proof.Proof.LibReal
import Idealize.ShloMosaic.Lib.ValueIdx
import Idealize.ShloMosaic.Lib.Pipeline.Value
import Idealize.ShloMosaic.PureOps.Ideal.Laws

noncomputable section

open scoped BigOperators

namespace Cert.Attn.Ref

open Idealize.ShloMosaic Idealize.ShloMosaic.ValueIdx Cert.LibReal Cert.Attn

open Cert.ReferenceIdeal Cert.ReferenceIdeal.Read in
/-- The score matrix of the reference at `(R, i)` is the real score. -/
theorem v1_at (Q K : Arr) (hQ : ∀ i, IsReal (Q i)) (hK : ∀ i, IsReal (K i)) (R i : Fin 4096) :
    val_main_v1 (F := Ideal) Q K (ix2 R i) = ((score Q K R i : ℝ) : EReal) := by
  rw [val_main_v1_apply]
  unfold score
  rw [← LibReal.sum_coe]
  refine Finset.sum_congr rfl fun k _ => ?_
  rw [val_main_v0_apply, EReal.coe_mul]
  have e1 : lidx_main_v1 (ix2 R i) k = ix2 R k :=
    funext fun a => Fin.ext (by match a with | ⟨0, _⟩ => rfl | ⟨1, _⟩ => rfl)
  have e2 : idx_main_v0 (ridx_main_v1 (ix2 R i) k) = ix2 i k :=
    funext fun a => Fin.ext (by match a with | ⟨0, _⟩ => rfl | ⟨1, _⟩ => rfl)
  rw [e1, e2, ← coe_toReal_of_real (hQ _), ← coe_toReal_of_real (hK _)]

/-- The largest of finitely many real numbers, at least one, started from minus infinity, is a real number. -/
theorem fold_max_real {ι : Type} [DecidableEq ι] (s : Finset ι) (f : ι → ℝ) (hs : s.Nonempty) :
    ∃ M : ℝ, s.fold max (⊥ : EReal) (fun k => ((f k : ℝ) : EReal)) = (M : EReal) := by
  induction s using Finset.induction_on with
  | empty => exact absurd hs (by simp)
  | insert a s ha ih =>
    rw [Finset.fold_insert ha]
    by_cases hs' : s.Nonempty
    · obtain ⟨M, hM⟩ := ih hs'
      exact ⟨max (f a) M, by rw [hM, coe_max]⟩
    · rw [Finset.not_nonempty_iff_eq_empty.mp hs', Finset.fold_empty]
      exact ⟨f a, max_eq_left bot_le⟩

/-- The single-precision word 0xFF800000 is minus infinity. -/
theorem ofBits_neg_inf : Ideal.ofBits .f32 0xFF800000#32 = (⊥ : EReal) := by simp [Ideal.ofBits, Ideal.ieee]

open Cert.ReferenceIdeal in
/-- Row `R` of the 4096 x 4096 matrix with column `k` put back is the index `(R, k)`. -/
theorem lift_row (h : S4096x4096.Reduces [1] S4096) (R : Fin 4096) (k : Fin (S4096x4096.size 1)) :
    h.lift (ix1 R) k = ix2 R (⟨k.val, k.isLt⟩ : Fin 4096) := by
  funext c; apply Fin.ext
  fin_cases c <;> rfl

open Cert.ReferenceIdeal Cert.ReferenceIdeal.Gen Cert.ReferenceIdeal.Read in
/-- The row maximum of the scores, taken from minus infinity, is a real number. -/
theorem v2_at (Q K : Arr) (hQ : ∀ i, IsReal (Q i)) (hK : ∀ i, IsReal (K i)) (R : Fin 4096) :
    ∃ M : ℝ, val_main_v2 (F := Ideal) Q K (ix1 R) = (M : EReal) := by
  have h : S4096x4096.Reduces [1] S4096 := by decide
  unfold val_main_v2
  rw [Host.reduce_eq_fold_single FloatOps.maximumf _ _ reducesTo_S4096x4096_S4096_d1 h h_S_]
  have hf : (val_main_v1 (F := Ideal) Q K ∘ h.lift (ix1 R)) = fun k : Fin 4096 => ((score Q K R k : ℝ) : EReal) :=
    funext fun k => by
      show val_main_v1 (F := Ideal) Q K (h.lift (ix1 R) k) = _
      rw [lift_row h R k]; exact v1_at Q K hQ hK R _
  have hi : val_main_cst (F := Ideal) (Shape.Idx.first h_S_) = (⊥ : EReal) := ofBits_neg_inf
  obtain ⟨M, hM⟩ := fold_max_real (Finset.univ : Finset (Fin 4096)) (fun k => score Q K R k) ⟨⟨0, by norm_num⟩, Finset.mem_univ _⟩
  refine ⟨M, ?_⟩
  rw [hf, hi]
  exact hM

open Cert.ReferenceIdeal Cert.ReferenceIdeal.Gen Cert.ReferenceIdeal.Read in
/-- The offset the reference subtracts in row `R` is a real number. -/
theorem v6_at (Q K : Arr) (hQ : ∀ i, IsReal (Q i)) (hK : ∀ i, IsReal (K i)) (R : Fin 4096) :
    ∃ M : ℝ, ∀ i : Fin 4096, val_main_v6 (F := Ideal) Q K (ix2 R i) = (M : EReal) := by
  obtain ⟨M, hM⟩ := v2_at Q K hQ hK R
  refine ⟨M, fun i => ?_⟩
  rw [val_main_v6_apply, val_main_v5_apply]
  have e : idx_main_v5 (idx_main_v6 (ix2 R i)) = ix1 R :=
    funext fun a => Fin.ext (by match a with | ⟨0, _⟩ => rfl)
  rw [e, val_main_v4_apply, hM, val_main_v3_apply, val_main_cst_0_apply]
  show max (Ideal.ofBits .f32 0xFF800000#32) (M : EReal) = M
  rw [ofBits_neg_inf]
  exact max_eq_right bot_le

open Cert.ReferenceIdeal Cert.ReferenceIdeal.Read in
/-- With the row's offset `M`, the exponentials of the reference at `(R, i)`. -/
theorem v8_at (Q K : Arr) (hQ : ∀ i, IsReal (Q i)) (hK : ∀ i, IsReal (K i)) (R : Fin 4096) (M : ℝ)
    (hM : ∀ i : Fin 4096, val_main_v6 (F := Ideal) Q K (ix2 R i) = (M : EReal)) (i : Fin 4096) :
    val_main_v8 (F := Ideal) Q K (ix2 R i) = ((Real.exp (score Q K R i - M) : ℝ) : EReal) := by
  rw [val_main_v8_apply, val_main_v7_apply, hM i, v1_at Q K hQ hK R i]
  show Ideal.exp ((score Q K R i : EReal) - (M : EReal)) = _
  rw [← EReal.coe_sub, Ideal.exp_coe]

open Cert.ReferenceIdeal Cert.ReferenceIdeal.Read in
/-- The row sum of the exponentials. -/
theorem v11_at (Q K : Arr) (hQ : ∀ i, IsReal (Q i)) (hK : ∀ i, IsReal (K i)) (R : Fin 4096) (M : ℝ)
    (hM : ∀ i : Fin 4096, val_main_v6 (F := Ideal) Q K (ix2 R i) = (M : EReal)) (i : Fin 4096) :
    val_main_v11 (F := Ideal) Q K (ix2 R i) = ((∑ i' : Fin 4096, Real.exp (score Q K R i' - M) : ℝ) : EReal) := by
  rw [val_main_v11_apply, val_main_v10_apply]
  have e : idx_main_v10 (idx_main_v11 (ix2 R i)) = ix1 R :=
    funext fun a => Fin.ext (by match a with | ⟨0, _⟩ => rfl)
  rw [e, val_main_v9_apply, val_main_cst_1_apply]
  show Ideal.ofBits .f32 0x00000000#32 + _ = _
  rw [Ideal.ofBits_zero_f32, zero_add, ← LibReal.sum_coe]
  refine Finset.sum_congr rfl fun k _ => ?_
  have e9 : idx_main_v9 (ix1 R) k = ix2 R k :=
    funext fun a => Fin.ext (by match a with | ⟨0, _⟩ => rfl | ⟨1, _⟩ => rfl)
  rw [e9]
  exact v8_at Q K hQ hK R M hM k

open Cert.ReferenceIdeal Cert.ReferenceIdeal.Read in
/-- The normalised and scaled weight at `(R, i)`. -/
theorem v14_at (Q K : Arr) (hQ : ∀ i, IsReal (Q i)) (hK : ∀ i, IsReal (K i)) (R : Fin 4096) (M : ℝ)
    (hM : ∀ i : Fin 4096, val_main_v6 (F := Ideal) Q K (ix2 R i) = (M : EReal)) (i : Fin 4096) :
    val_main_v14 (F := Ideal) Q K (ix2 R i)
      = ((Real.exp (score Q K R i - M) / (∑ i' : Fin 4096, Real.exp (score Q K R i' - M)) * gam : ℝ) : EReal) := by
  have hpos : (0 : ℝ) < ∑ i' : Fin 4096, Real.exp (score Q K R i' - M) :=
    Finset.sum_pos (fun i _ => Real.exp_pos _) ⟨⟨0, by norm_num⟩, Finset.mem_univ _⟩
  rw [val_main_v14_apply, val_main_v12_apply, val_main_v13_apply, val_main_cst_2_apply,
    v8_at Q K hQ hK R M hM i, v11_at Q K hQ hK R M hM i]
  show Ideal.div _ _ * Ideal.ofBits .f32 0x3D000000#32 = _
  rw [Ideal.div_coe (ne_of_gt hpos), gam_eq, ← EReal.coe_mul, ← EReal.coe_mul]
  congr 1; ring

/-- The reference's result at `(R, c)` is the softmax-weighted sum at some real offset `M`. -/
theorem ref_entry (Q K V : Arr) (hQ : ∀ i, IsReal (Q i)) (hK : ∀ i, IsReal (K i)) (hV : ∀ i, IsReal (V i))
    (R : Fin 4096) (c : Fin 1024) :
    ∃ M : ℝ, Cert.ReferenceIdeal.Read.val_main_v15 (F := Ideal) Q K V (ix2 R c)
      = ((Softmax.wsum (score Q K R) (vcol V c) M gam : ℝ) : EReal) := by
  obtain ⟨M, hM⟩ := v6_at Q K hQ hK R
  refine ⟨M, ?_⟩
  rw [Cert.ReferenceIdeal.Read.val_main_v15_apply]
  unfold Softmax.wsum
  rw [← LibReal.sum_coe]
  refine Finset.sum_congr rfl fun k _ => ?_
  have e1 : Cert.ReferenceIdeal.Read.lidx_main_v15 (ix2 R c) k = ix2 R k :=
    funext fun a => Fin.ext (by match a with | ⟨0, _⟩ => rfl | ⟨1, _⟩ => rfl)
  have e2 : Cert.ReferenceIdeal.Read.ridx_main_v15 (ix2 R c) k = ix2 k c :=
    funext fun a => Fin.ext (by match a with | ⟨0, _⟩ => rfl | ⟨1, _⟩ => rfl)
  rw [e1, e2, v14_at Q K hQ hK R M hM k]
  obtain ⟨v, hv⟩ := hV (ix2 k c)
  unfold vcol
  rw [hv, EReal.toReal_coe, ← EReal.coe_mul]

/-- The reference's result is the attention output. -/
theorem ref_eq (Q K V : Arr) (hQ : ∀ i, IsReal (Q i)) (hK : ∀ i, IsReal (K i)) (hV : ∀ i, IsReal (V i)) :
    Cert.ReferenceIdeal.Read.val_main_v15 (F := Ideal) Q K V = G Q K V := by
  funext i
  obtain ⟨R, c, rfl⟩ : ∃ (R : Fin 4096) (c : Fin 1024), i = ix2 R c := ⟨i 0, i 1, eq_ix2 i⟩
  obtain ⟨M, hM⟩ := ref_entry Q K V hQ hK hV R c
  rw [hM]
  show _ = ((Softmax.wsum (score Q K R) (vcol V c) 0 gam : ℝ) : EReal)
  rw [Softmax.wsum_indep _ _ M 0]

end Cert.Attn.Ref

end
-- ==== Proof.Finite.lean ====
/-
  The precondition read back: when the test "every |entry| < +inf, for all three arrays" is all ones, every entry of
  each of the three argument arrays is a real number.
-/
import proofs.«153183_j7206955123485_2_alg».proof.Pre_finite_inputs
import proofs.«153183_j7206955123485_2_alg».proof.Proof.LibReal
import Idealize.ShloMosaic.Lib.ReduceAll
import Idealize.ShloMosaic.Lib.ValueIdx

noncomputable section

namespace Cert.Attn.Finite

open Idealize.ShloMosaic Idealize.ShloMosaic.ValueIdx Cert.LibReal

/-- Under the finiteness test all entries of the three arrays are real numbers. -/
theorem real_of_pre [Cert.Pre_finite_inputs.Facts]
    (a0 a1 a2 : FVec Ideal Cert.Pre_finite_inputs.S4096x1024 .f32)
    (h : Cert.Pre_finite_inputs.fn (F := Ideal) a0 a1 a2 = fun _ => 1#1) :
    (∀ i, IsReal (a0 i)) ∧ (∀ i, IsReal (a1 i)) ∧ (∀ i, IsReal (a2 i)) := by
  haveI : Subsingleton Cert.Pre_finite_inputs.S_.Idx := ⟨fun a b => funext fun d => d.elim0⟩
  have h0 := congrFun h ValueIdx.ix0
  dsimp only [Cert.Pre_finite_inputs.fn] at h0
  change IntOp.andi (IntOp.andi _ _) _ = 1#1 at h0
  obtain ⟨h01, h2⟩ := IntOp.andi_eq_one.1 h0
  obtain ⟨h00, h1⟩ := IntOp.andi_eq_one.1 h01
  refine ⟨fun i => ?_, fun i => ?_, fun i => ?_⟩
  · exact entry_real a0 _ i (Host.reduce_andi_all _ _ _ _ _ h00 i)
  · exact entry_real a1 _ i (Host.reduce_andi_all _ _ _ _ _ h1 i)
  · exact entry_real a2 _ i (Host.reduce_andi_all _ _ _ _ _ h2 i)

end Cert.Attn.Finite

end
-- ==== Proof.lean ====
/-
  Flash attention against the plain softmax attention, on the extended reals.

  Both programs take Q, K, V : [4096, 1024]. The reference forms the 4096 x 4096 scores Q Kᵀ, takes the softmax of each
  row (subtracting the row's maximum), scales the weights by 2^-5 and multiplies by V. The kernel visits, for each block
  of 512 query rows, the keys in 8 blocks of 512, carrying a running offset, a running sum of weights and running
  weighted sums, rescaling the sums whenever the offset grows, and at the last block writes the weighted sums times
  (1 / sum of weights) times 2^-5.

  For finite (real) inputs all scores are real numbers. Relative to any real offset μ the sums of the first n blocks
  are E μ n and A μ n; changing the offset rescales both by exp (μ - μ'), so the kernel's step is exactly the passage
  from n to n + 1 blocks, and the final quotient A / E does not depend on the offset: it is the softmax-weighted sum
  the reference computes with the row maximum as offset. The proof never uses that the kernel's offset is a maximum.
  The three frames are the generated ones; the idealization rewrote nothing.
-/
import proofs.«153183_j7206955123485_2_alg».proof.Defs
import proofs.«153183_j7206955123485_2_alg».proof.Proof.Gen.Kernel
import proofs.«153183_j7206955123485_2_alg».proof.Proof.Gen.Kernel.Skeleton
import proofs.«153183_j7206955123485_2_alg».proof.Proof.Gen.Kernel.Launch
import proofs.«153183_j7206955123485_2_alg».proof.Proof.Gen.Kernel.Points
import proofs.«153183_j7206955123485_2_alg».proof.Proof.Gen.Kernel.Frame
import proofs.«153183_j7206955123485_2_alg».proof.Proof.Gen.KernelIdeal
import proofs.«153183_j7206955123485_2_alg».proof.Proof.Gen.KernelIdeal.Skeleton
import proofs.«153183_j7206955123485_2_alg».proof.Proof.Gen.KernelIdeal.Launch
import proofs.«153183_j7206955123485_2_alg».proof.Proof.Gen.KernelIdeal.Points
import proofs.«153183_j7206955123485_2_alg».proof.Proof.Gen.KernelIdeal.Frame
import proofs.«153183_j7206955123485_2_alg».proof.Proof.Gen.ReferenceIdeal
import proofs.«153183_j7206955123485_2_alg».proof.Proof.Gen.Pre_finite_inputs
import proofs.«153183_j7206955123485_2_alg».proof.Proof.Gen.KernelIdeal.Value
import proofs.«153183_j7206955123485_2_alg».proof.Proof.Gen.ReferenceIdeal.Run
import proofs.«153183_j7206955123485_2_alg».proof.Proof.Gen.ReferenceIdeal.Read
import proofs.«153183_j7206955123485_2_alg».proof.Proof.FinalArr
import proofs.«153183_j7206955123485_2_alg».proof.Proof.RefEntry
import proofs.«153183_j7206955123485_2_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- For finite inputs both programs end with the attention output `G` of the arguments: the kernel by the induction
    along its grid, the reference by reading its operations at an index. -/
theorem algebraic : Cert.algebraic_KernelIdeal_ReferenceIdeal := by
  intro m ρ m' ρ' hpre hagree
  have hreal : ∀ c : Dev Cert.KernelIdeal.nD,
      (∀ i, Cert.LibReal.IsReal (m ((c : Thread Cert.KernelIdeal.nD Cert.KernelIdeal.τ).loc Cert.KernelIdeal.main_arg0) i))
      ∧ (∀ i, Cert.LibReal.IsReal (m ((c : Thread Cert.KernelIdeal.nD Cert.KernelIdeal.τ).loc Cert.KernelIdeal.main_arg1) i))
      ∧ (∀ i, Cert.LibReal.IsReal (m ((c : Thread Cert.KernelIdeal.nD Cert.KernelIdeal.τ).loc Cert.KernelIdeal.main_arg2) i)) :=
    fun c => Cert.Attn.Finite.real_of_pre _ _ _ (hpre c)
  refine ⟨fun c => Cert.Attn.G (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    Cert.Attn.Final.run m ρ hreal, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v15_eq, (hagree c).1, (hagree c).2.1, (hagree c).2.2]
  exact Cert.Attn.Ref.ref_eq _ _ _ (hreal c).1 (hreal c).2.1 (hreal c).2.2

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
